-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1433 : Shape := ⟨2, ![50000, 1433]⟩
abbrev S2x800000 : Shape := ⟨2, ![2, 800000]⟩
abbrev S1433x256 : Shape := ⟨2, ![1433, 256]⟩
abbrev S256 : Shape := ⟨1, ![256]⟩
abbrev S256x256 : Shape := ⟨2, ![256, 256]⟩
abbrev S256x7 : Shape := ⟨2, ![256, 7]⟩
abbrev S7 : Shape := ⟨1, ![7]⟩
abbrev S_ : Shape := ⟨0, ![]⟩

class Facts : Prop where
  bcast_S_S50000x1433 : S_.BroadcastsInDim S50000x1433 (![] : Fin 0 → Fin S50000x1433.rank)
  reducesTo_S50000x1433_S_d0_1 : S50000x1433.ReducesTo [0, 1] S_
  h_S_ : 0 < S_.numel
  bcast_S_S1433x256 : S_.BroadcastsInDim S1433x256 (![] : Fin 0 → Fin S1433x256.rank)
  reducesTo_S1433x256_S_d0_1 : S1433x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x7 : S_.BroadcastsInDim S256x7 (![] : Fin 0 → Fin S256x7.rank)
  reducesTo_S256x7_S_d0_1 : S256x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S256 .f32) (main_arg6 : FVec F S256x7 .f32) (main_arg7 : FVec F S7 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x7 .f32 := Host.absf main_arg6
  let main_cst_8 : FVec F S_ .f32 := constant S_ .f32 0x7F800000#32
  let main_v25 : FVec F S256x7 .f32 := broadcastInDim S256x7 ![] bcast_S_S256x7 main_cst_8
  let main_v26 : IVec S256x7 1 := cmpf .olt main_v24 main_v25
  let main_c_9 : IVec S_ 1 := constantI S_ 1 1#1
  let main_v27 : IVec S_ 1 := (fun x v => Host.reduce IntOp.andi x v reducesTo_S256x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S50000x1433 .f32) (main_arg1 : IVec S2x800000 32) (main_arg2 : FVec F S1433x256 .f32) (main_arg3 : FVec F S256 .f32) (main_arg4 : FVec F S256x256 .f32) (main_arg5 : FVec F S256 .f32) (main_arg6 : FVec F S256x7 .f32) (main_arg7 : FVec F S7 .f32) : IVec S_ 1 :=
  let main_v0 : FVec F S50000x1433 .f32 := Host.absf main_arg0
  let main_cst : FVec F S_ .f32 := constant S_ .f32 0x7F800000#32
  let main_v1 : FVec F S50000x1433 .f32 := broadcastInDim S50000x1433 ![] bcast_S_S50000x1433 main_cst
  let main_v2 : IVec S50000x1433 1 := cmpf .olt main_v0 main_v1
  let main_c : IVec S_ 1 := constantI S_ 1 1#1
  let main_v3 : IVec S_ 1 := (fun x v => Host.reduce IntOp.andi x v reducesTo_S50000x1433_S_d0_1 h_S_) main_v2 main_c
  let main_v4 : FVec F S1433x256 .f32 := Host.absf main_arg2
  let main_cst_0 : FVec F S_ .f32 := constant S_ .f32 0x7F800000#32
  let main_v5 : FVec F S1433x256 .f32 := broadcastInDim S1433x256 ![] bcast_S_S1433x256 main_cst_0
  let main_v6 : IVec S1433x256 1 := cmpf .olt main_v4 main_v5
  let main_c_1 : IVec S_ 1 := constantI S_ 1 1#1
  let main_v7 : IVec S_ 1 := (fun x v => Host.reduce IntOp.andi x v reducesTo_S1433x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x1433 : Shape := ⟨2, ![50000, 1433]⟩
abbrev S2x800000 : Shape := ⟨2, ![2, 800000]⟩
abbrev S1433x256 : Shape := ⟨2, ![1433, 256]⟩
abbrev S256 : Shape := ⟨1, ![256]⟩
abbrev S256x256 : Shape := ⟨2, ![256, 256]⟩
abbrev S256x7 : Shape := ⟨2, ![256, 7]⟩
abbrev S7 : Shape := ⟨1, ![7]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S1000x1433 : Shape := ⟨2, ![1000, 1433]⟩
abbrev S1000x256 : Shape := ⟨2, ![1000, 256]⟩
abbrev S850000x256 : Shape := ⟨2, ![850000, 256]⟩
abbrev S1x256 : Shape := ⟨2, ![1, 256]⟩
abbrev S2000x256 : Shape := ⟨2, ![2000, 256]⟩
abbrev S50000x7 : Shape := ⟨2, ![50000, 7]⟩
abbrev S2000x7 : Shape := ⟨2, ![2000, 7]⟩
abbrev S850000x7 : Shape := ⟨2, ![850000, 7]⟩
abbrev S1x7 : Shape := ⟨2, ![1, 7]⟩
abbrev S50000x1 : Shape := ⟨2, ![50000, 1]⟩

abbrev nBuf : Space → Nat
  | .hbm => 130
  | .vmem => 15
  | .smem => 0
  | _ => 0

abbrev hbmTy0_0 (i : Nat) : BufTy := match i % 128 with
  | 0 => ⟨S50000x1433, .f32⟩
  | 1 => ⟨S2x800000, .i32⟩
  | 2 => ⟨S1433x256, .f32⟩
  | 3 => ⟨S256, .f32⟩
  | 4 => ⟨S256x256, .f32⟩
  | 5 => ⟨S256, .f32⟩
  | 6 => ⟨S256x7, .f32⟩
  | 7 => ⟨S7, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x256, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x256, .f32⟩
  | 59 => ⟨S850000x1, .f32⟩
  | 60 => ⟨S850000x256, .f32⟩
  | 61 => ⟨S850000x256, .f32⟩
  | 62 => ⟨S_, .f32⟩
  | 63 => ⟨S50000x256, .f32⟩
  | 64 => ⟨S850000x1, .i32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x256, .f32⟩
  | 82 => ⟨S850000x1, .f32⟩
  | 83 => ⟨S850000x256, .f32⟩
  | 84 => ⟨S850000x256, .f32⟩
  | 85 => ⟨S_, .f32⟩
  | 86 => ⟨S50000x256, .f32⟩
  | 87 => ⟨S850000x1, .i32⟩
  | 88 => ⟨S50000x256, .f32⟩
  | 89 => ⟨S1x256, .f32⟩
  | 90 => ⟨S50000x256, .f32⟩
  | 91 => ⟨S50000x256, .f32⟩
  | 92 => ⟨S_, .f32⟩
  | 93 => ⟨S50000x256, .f32⟩
  | 94 => ⟨S50000x256, .f32⟩
  | 95 => ⟨S50000x7, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x7, .f32⟩
  | 105 => ⟨S850000x1, .f32⟩
  | 106 => ⟨S850000x7, .f32⟩
  | 107 => ⟨S850000x7, .f32⟩
  | 108 => ⟨S_, .f32⟩
  | 109 => ⟨S50000x7, .f32⟩
  | 110 => ⟨S850000x1, .i32⟩
  | 111 => ⟨S50000x7, .f32⟩
  | 112 => ⟨S1x7, .f32⟩
  | 113 => ⟨S50000x7, .f32⟩
  | 114 => ⟨S50000x7, .f32⟩
  | 115 => ⟨S_, .f32⟩
  | 116 => ⟨S50000, .f32⟩
  | 117 => ⟨S_, .f32⟩
  | 118 => ⟨S50000, .f32⟩
  | 119 => ⟨S50000, .f32⟩
  | 120 => ⟨S50000x1, .f32⟩
  | 121 => ⟨S50000x7, .f32⟩
  | 122 => ⟨S50000x7, .f32⟩
  | 123 => ⟨S50000x7, .f32⟩
  | 124 => ⟨S_, .f32⟩
  | 125 => ⟨S50000, .f32⟩
  | 126 => ⟨S50000x1, .f32⟩
  | 127 => ⟨S50000x1, .f32⟩
  | _ => ⟨S50000x1433, .f32⟩

abbrev hbmTy0_1 (i : Nat) : BufTy := match i % 128 with
  | 0 => ⟨S50000x7, .f32⟩
  | 1 => ⟨S50000x7, .f32⟩
  | _ => ⟨S50000x1433, .f32⟩

abbrev hbmTy (i : Nat) : BufTy := match i / 128 with
  | 0 => hbmTy0_0 i
  | 1 => hbmTy0_1 i
  | _ => ⟨S50000x1433, .f32⟩

abbrev bufTy : (tb : Table) → Fin (tcTables nBuf tb) → BufTy
  | .hbm, ⟨i, _⟩ => hbmTy i
  | .local _ .vmem, ⟨0, _⟩ => ⟨S1000x1433, .f32⟩
  | .local _ .vmem, ⟨1, _⟩ => ⟨S1000x1433, .f32⟩
  | .local _ .vmem, ⟨2, _⟩ => ⟨S1433x256, .f32⟩
  | .local _ .vmem, ⟨3, _⟩ => ⟨S1000x256, .f32⟩
  | .local _ .vmem, ⟨4, _⟩ => ⟨S1000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x7, .f32⟩
  | .local _ .vmem, ⟨13, _⟩ => ⟨S2000x7, .f32⟩
  | .local _ .vmem, ⟨14, _⟩ => ⟨S2000x7, .f32⟩
  | _, _ => ⟨S50000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call2_cst : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call3_cst : Ref sig .tc := ⟨.hbm, 115, rfl⟩
abbrev main_call3_v0 : Ref sig .tc := ⟨.hbm, 116, rfl⟩
abbrev main_call3_cst_0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_v6 : Ref sig .tc := ⟨.hbm, 123, rfl⟩
abbrev main_call3_cst_1 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_v84 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S1000x1433_S1000x1433_0_0 : ∀ a, (![0, 0] : Fin 2 → Nat) a + S1000x1433.size a ≤ S1000x1433.size a
  h_S1000x1433 : 0 < S1000x1433.numel
  bitsLt_bf16_f32 : FTy.bits .bf16 < FTy.bits .f32
  inb_S1433x256_S1433x256_0_0 : ∀ a, (![0, 0] : Fin 2 → Nat) a + S1433x256.size a ≤ S1433x256.size a
  h_S1433x256 : 0 < S1433x256.numel
  inb_S1000x256_S1000x256_0_0 : ∀ a, (![0, 0] : Fin 2 → Nat) a + S1000x256.size a ≤ S1000x256.size a
  h_S1000x256 : 0 < S1000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256x7_S256x7_0_0 : ∀ a, (![0, 0] : Fin 2 → Nat) a + S256x7.size a ≤ S256x7.size a
  h_S256x7 : 0 < S256x7.numel
  inb_S2000x7_S2000x7_0_0 : ∀ a, (![0, 0] : Fin 2 → Nat) a + S2000x7.size a ≤ S2000x7.size a
  h_S2000x7 : 0 < S2000x7.numel
  bcast_S850000x1_S850000x7_0_1 : S850000x1.BroadcastsInDim S850000x7 (![0, 1] : Fin 2 → Fin S850000x7.rank)
  bcast_S_S50000x7 : S_.BroadcastsInDim S50000x7 (![] : Fin 0 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  reducesTo_S50000x7_S50000_d1 : S50000x7.ReducesTo [1] S50000
  h_S_ : 0 < S_.numel
  bcast_S50000_S50000x1_0 : S50000.BroadcastsInDim S50000x1 (![0] : Fin 1 → Fin S50000x1.rank)
  bcast_S50000x1_S50000x7_0_1 : S50000x1.BroadcastsInDim S50000x7 (![0, 1] : Fin 2 → Fin S50000x7.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x1433_S1433x256_S1000x256_1_0_0_1_n_n_wf : DotDims.WF S1000x1433 S1433x256 S1000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  dot_S2000x256_S256x7_S2000x7_1_0_0_1_n_n_wf : DotDims.WF S2000x256 S256x7 S2000x7 [1] [0] [0] [1] [] []
  gather_S50000x7_S850000x1_S850000x7_1_0_n_n_0_1_17_wf : GatherDims.WF S50000x7 S850000x1 S850000x7 [1] [0] [] [0] [] 1 ![1, 7]
  scatter_S50000x7_S850000x1_S850000x7_1_0_0_1_wf : ScatterDims.WF S50000x7 S850000x1 S850000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S50000x1433.size a
  hwx0_0 : ∀ i : grid0.Coords, EltTy.bits .f32 = 32 ∨ (Rect.block (s := S50000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x256.size a ≤ S1433x256.size a
  hwx0_1 : ∀ i : grid0.Coords, EltTy.bits .f32 = 32 ∨ (Rect.block (s := S1433x256) S1433x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x7.size a ≤ S256x7.size a
  hwx2_1 : ∀ i : grid2.Coords, EltTy.bits .f32 = 32 ∨ (Rect.block (s := S256x7) S256x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x7.size a ≤ S50000x7.size a
  hwx2_2 : ∀ i : grid2.Coords, EltTy.bits .f32 = 32 ∨ (Rect.block (s := S50000x7) S2000x7.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x1433_S1433x256_S1000x256_1_0_0_1_n_n : DotDims S1000x1433 S1433x256 S1000x256 where
  lhsContracting := [1]
  rhsContracting := [0]
  lhsNonContracting := [0]
  rhsNonContracting := [1]
  lhsBatch := []
  rhsBatch := []
  wf := dot_S1000x1433_S1433x256_S1000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x7_S2000x7_1_0_0_1_n_n : DotDims S2000x256 S256x7 S2000x7 where
  lhsContracting := [1]
  rhsContracting := [0]
  lhsNonContracting := [0]
  rhsNonContracting := [1]
  lhsBatch := []
  rhsBatch := []
  wf := dot_S2000x256_S256x7_S2000x7_1_0_0_1_n_n_wf
def gather_S50000x7_S850000x1_S850000x7_1_0_n_n_0_1_17 : GatherDims S50000x7 S850000x1 S850000x7 where
  offsetDims := [1]
  collapsedSliceDims := [0]
  operandBatchingDims := []
  startIndicesBatchingDims := []
  startIndexMap := [0]
  indexVectorDim := 1
  sliceSizes := ![1, 7]
  wf := gather_S50000x7_S850000x1_S850000x7_1_0_n_n_0_1_17_wf
def scatter_S50000x7_S850000x1_S850000x7_1_0_0_1 : ScatterDims S50000x7 S850000x1 S850000x7 where
  updateWindowDims := [1]
  insertedWindowDims := [0]
  scatterDimsToOperandDims := [0]
  indexVectorDim := 1
  wf := scatter_S50000x7_S850000x1_S850000x7_1_0_0_1_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S2000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x1433 : Shape := ⟨2, ![50000, 1433]⟩
abbrev S2x800000 : Shape := ⟨2, ![2, 800000]⟩
abbrev S1433x256 : Shape := ⟨2, ![1433, 256]⟩
abbrev S256 : Shape := ⟨1, ![256]⟩
abbrev S256x256 : Shape := ⟨2, ![256, 256]⟩
abbrev S256x7 : Shape := ⟨2, ![256, 7]⟩
abbrev S7 : Shape := ⟨1, ![7]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x7 : Shape := ⟨2, ![50000, 7]⟩
abbrev S850000x7 : Shape := ⟨2, ![850000, 7]⟩
abbrev S1x7 : Shape := ⟨2, ![1, 7]⟩
abbrev S50000x1 : Shape := ⟨2, ![50000, 1]⟩

abbrev nBuf : Space → Nat
  | .hbm => 130
  | .vmem => 0
  | .smem => 0
  | _ => 0

abbrev hbmTy0_0 (i : Nat) : BufTy := match i % 128 with
  | 0 => ⟨S50000x1433, .f32⟩
  | 1 => ⟨S2x800000, .i32⟩
  | 2 => ⟨S1433x256, .f32⟩
  | 3 => ⟨S256, .f32⟩
  | 4 => ⟨S256x256, .f32⟩
  | 5 => ⟨S256, .f32⟩
  | 6 => ⟨S256x7, .f32⟩
  | 7 => ⟨S7, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x256, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x256, .f32⟩
  | 59 => ⟨S850000x1, .f32⟩
  | 60 => ⟨S850000x256, .f32⟩
  | 61 => ⟨S850000x256, .f32⟩
  | 62 => ⟨S_, .f32⟩
  | 63 => ⟨S50000x256, .f32⟩
  | 64 => ⟨S850000x1, .i32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x256, .f32⟩
  | 82 => ⟨S850000x1, .f32⟩
  | 83 => ⟨S850000x256, .f32⟩
  | 84 => ⟨S850000x256, .f32⟩
  | 85 => ⟨S_, .f32⟩
  | 86 => ⟨S50000x256, .f32⟩
  | 87 => ⟨S850000x1, .i32⟩
  | 88 => ⟨S50000x256, .f32⟩
  | 89 => ⟨S1x256, .f32⟩
  | 90 => ⟨S50000x256, .f32⟩
  | 91 => ⟨S50000x256, .f32⟩
  | 92 => ⟨S_, .f32⟩
  | 93 => ⟨S50000x256, .f32⟩
  | 94 => ⟨S50000x256, .f32⟩
  | 95 => ⟨S50000x7, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x7, .f32⟩
  | 105 => ⟨S850000x1, .f32⟩
  | 106 => ⟨S850000x7, .f32⟩
  | 107 => ⟨S850000x7, .f32⟩
  | 108 => ⟨S_, .f32⟩
  | 109 => ⟨S50000x7, .f32⟩
  | 110 => ⟨S850000x1, .i32⟩
  | 111 => ⟨S50000x7, .f32⟩
  | 112 => ⟨S1x7, .f32⟩
  | 113 => ⟨S50000x7, .f32⟩
  | 114 => ⟨S50000x7, .f32⟩
  | 115 => ⟨S_, .f32⟩
  | 116 => ⟨S50000, .f32⟩
  | 117 => ⟨S_, .f32⟩
  | 118 => ⟨S50000, .f32⟩
  | 119 => ⟨S50000, .f32⟩
  | 120 => ⟨S50000x1, .f32⟩
  | 121 => ⟨S50000x7, .f32⟩
  | 122 => ⟨S50000x7, .f32⟩
  | 123 => ⟨S50000x7, .f32⟩
  | 124 => ⟨S_, .f32⟩
  | 125 => ⟨S50000, .f32⟩
  | 126 => ⟨S50000x1, .f32⟩
  | 127 => ⟨S50000x1, .f32⟩
  | _ => ⟨S50000x1433, .f32⟩

abbrev hbmTy0_1 (i : Nat) : BufTy := match i % 128 with
  | 0 => ⟨S50000x7, .f32⟩
  | 1 => ⟨S50000x7, .f32⟩
  | _ => ⟨S50000x1433, .f32⟩

abbrev hbmTy (i : Nat) : BufTy := match i / 128 with
  | 0 => hbmTy0_0 i
  | 1 => hbmTy0_1 i
  | _ => ⟨S50000x1433, .f32⟩

abbrev bufTy : (tb : Table) → Fin (tcTables nBuf tb) → BufTy
  | .hbm, ⟨i, _⟩ => hbmTy i
  | _, _ => ⟨S50000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call2_cst : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call3_cst : Ref sig .tc := ⟨.hbm, 115, rfl⟩
abbrev main_call3_v0 : Ref sig .tc := ⟨.hbm, 116, rfl⟩
abbrev main_call3_cst_0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_v6 : Ref sig .tc := ⟨.hbm, 123, rfl⟩
abbrev main_call3_cst_1 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_v84 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x7_0_1 : S850000x1.BroadcastsInDim S850000x7 (![0, 1] : Fin 2 → Fin S850000x7.rank)
  bcast_S_S50000x7 : S_.BroadcastsInDim S50000x7 (![] : Fin 0 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  reducesTo_S50000x7_S50000_d1 : S50000x7.ReducesTo [1] S50000
  h_S_ : 0 < S_.numel
  bcast_S50000_S50000x1_0 : S50000.BroadcastsInDim S50000x1 (![0] : Fin 1 → Fin S50000x1.rank)
  bcast_S50000x1_S50000x7_0_1 : S50000x1.BroadcastsInDim S50000x7 (![0, 1] : Fin 2 → Fin S50000x7.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x1433_S1433x256_S50000x256_1_0_0_1_n_n_wf : DotDims.WF S50000x1433 S1433x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x7_S50000x7_1_0_0_1_n_n_wf : DotDims.WF S50000x256 S256x7 S50000x7 [1] [0] [0] [1] [] []
  gather_S50000x7_S850000x1_S850000x7_1_0_n_n_0_1_17_wf : GatherDims.WF S50000x7 S850000x1 S850000x7 [1] [0] [] [0] [] 1 ![1, 7]
  scatter_S50000x7_S850000x1_S850000x7_1_0_0_1_wf : ScatterDims.WF S50000x7 S850000x1 S850000x7 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x1433_S1433x256_S50000x256_1_0_0_1_n_n : DotDims S50000x1433 S1433x256 S50000x256 where
  lhsContracting := [1]
  rhsContracting := [0]
  lhsNonContracting := [0]
  rhsNonContracting := [1]
  lhsBatch := []
  rhsBatch := []
  wf := dot_S50000x1433_S1433x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x7_S50000x7_1_0_0_1_n_n : DotDims S50000x256 S256x7 S50000x7 where
  lhsContracting := [1]
  rhsContracting := [0]
  lhsNonContracting := [0]
  rhsNonContracting := [1]
  lhsBatch := []
  rhsBatch := []
  wf := dot_S50000x256_S256x7_S50000x7_1_0_0_1_n_n_wf
def gather_S50000x7_S850000x1_S850000x7_1_0_n_n_0_1_17 : GatherDims S50000x7 S850000x1 S850000x7 where
  offsetDims := [1]
  collapsedSliceDims := [0]
  operandBatchingDims := []
  startIndicesBatchingDims := []
  startIndexMap := [0]
  indexVectorDim := 1
  sliceSizes := ![1, 7]
  wf := gather_S50000x7_S850000x1_S850000x7_1_0_n_n_0_1_17_wf
def scatter_S50000x7_S850000x1_S850000x7_1_0_0_1 : ScatterDims S50000x7 S850000x1 S850000x7 where
  updateWindowDims := [1]
  insertedWindowDims := [0]
  scatterDimsToOperandDims := [0]
  indexVectorDim := 1
  wf := scatter_S50000x7_S850000x1_S850000x7_1_0_0_1_wf

class Facts : Prop extends Facts₀ where

variable [Facts]
-- ==== Proof.KernelRun.lean ====
/-
  The idealized kernel program's run with its result buffer named.

  The program is three row-tiled matrix products among stretches of host operations. Its run from the launch memory ends
  with every unscoped buffer at the contents `W12`: the fold of the host stretches and of the three regions' write-backs
  through the program, from the launch memory. The frame statement keeps of that only "the arguments are unchanged"; here the same
  run is stated with the result buffer at `W12` too, which is what a value proof reads.
-/
import proofs.«101970_j51616916963749_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents `W12` and the argument arrays as launched. -/
theorem run_named : θ_run defs (onTc (τ := τ) (main (F := F))) ⟨m, fun _ => 0, ρ⟩ (fun r => ∀ c : Dev nD,
      r.2.mem ((c.tc : Thread nD τ).loc main_v84) = W12 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v84 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Hand

end
-- ==== Proof.KernelCarry.lean ====
/-
  What the kernel program's buffers hold at the boundaries of its three regions, for the buffers that only pass through.

  The source list, the target list and the per-edge coefficient are computed once, before the first region, and read again
  after each region; the features, weights and biases are arguments, never written. No host operation after the first
  region and no region writes any of them, so at every later boundary each still holds what it held when the first region
  was entered (an argument: what it held at launch).
-/
import proofs.«101970_j51616916963749_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- Reads a buffer through the host operations before the first region. -/
local macro "read_pre" : tactic => `(tactic| (dsimp only [W3, W2, W1, hostOps0, hostOps0_1, hostOps0_2]; after_results_simp))
/-- Reads a buffer through the host operations between the first region and the second. -/
local macro "read_conv1" : tactic => `(tactic| (dsimp only [W6, W5, hostOps1, hostOps1_1]; after_results_simp))
/-- Reads a buffer through the host operations between the second region and the third. -/
local macro "read_conv2" : tactic => `(tactic| (dsimp only [W9, W8, hostOps2, hostOps2_1]; after_results_simp))

/-! ## The arguments when the first region is entered -/
theorem arg0_3 : W3 m ρ c (Proc.devRef .tc main_arg0) = m ((c.tc : Thread nD τ).loc main_arg0) := by
  read_pre
  first | done | rfl
theorem arg2_3 : W3 m ρ c (Proc.devRef .tc main_arg2) = m ((c.tc : Thread nD τ).loc main_arg2) := by
  read_pre
  first | done | rfl
theorem arg3_3 : W3 m ρ c (Proc.devRef .tc main_arg3) = m ((c.tc : Thread nD τ).loc main_arg3) := by
  read_pre
  first | done | rfl
theorem arg4_3 : W3 m ρ c (Proc.devRef .tc main_arg4) = m ((c.tc : Thread nD τ).loc main_arg4) := by
  read_pre
  first | done | rfl
theorem arg5_3 : W3 m ρ c (Proc.devRef .tc main_arg5) = m ((c.tc : Thread nD τ).loc main_arg5) := by
  read_pre
  first | done | rfl
theorem arg6_3 : W3 m ρ c (Proc.devRef .tc main_arg6) = m ((c.tc : Thread nD τ).loc main_arg6) := by
  read_pre
  first | done | rfl
theorem arg7_3 : W3 m ρ c (Proc.devRef .tc main_arg7) = m ((c.tc : Thread nD τ).loc main_arg7) := by
  read_pre
  first | done | rfl

/-! ## Through the first region: it writes only its result array -/

theorem v3_4 : W4 m ρ c (Proc.devRef .tc main_v3) = W3 m ρ c (Proc.devRef .tc main_v3) := W4_of_ne m ρ c main_v3 (by decide)
theorem v6_4 : W4 m ρ c (Proc.devRef .tc main_v6) = W3 m ρ c (Proc.devRef .tc main_v6) := W4_of_ne m ρ c main_v6 (by decide)
theorem v30_4 : W4 m ρ c (Proc.devRef .tc main_v30) = W3 m ρ c (Proc.devRef .tc main_v30) := W4_of_ne m ρ c main_v30 (by decide)
theorem arg3_4 : W4 m ρ c (Proc.devRef .tc main_arg3) = m ((c.tc : Thread nD τ).loc main_arg3) := (W4_of_ne m ρ c main_arg3 (by decide)).trans (arg3_3 m ρ c)
theorem arg4_4 : W4 m ρ c (Proc.devRef .tc main_arg4) = m ((c.tc : Thread nD τ).loc main_arg4) := (W4_of_ne m ρ c main_arg4 (by decide)).trans (arg4_3 m ρ c)
theorem arg5_4 : W4 m ρ c (Proc.devRef .tc main_arg5) = m ((c.tc : Thread nD τ).loc main_arg5) := (W4_of_ne m ρ c main_arg5 (by decide)).trans (arg5_3 m ρ c)
theorem arg6_4 : W4 m ρ c (Proc.devRef .tc main_arg6) = m ((c.tc : Thread nD τ).loc main_arg6) := (W4_of_ne m ρ c main_arg6 (by decide)).trans (arg6_3 m ρ c)
theorem arg7_4 : W4 m ρ c (Proc.devRef .tc main_arg7) = m ((c.tc : Thread nD τ).loc main_arg7) := (W4_of_ne m ρ c main_arg7 (by decide)).trans (arg7_3 m ρ c)

/-! ## Through layer 1's host operations (gather, scale, scatter-add, bias, relu) and the second region -/

theorem v3_6 : W6 m ρ c (Proc.devRef .tc main_v3) = W4 m ρ c (Proc.devRef .tc main_v3) := by read_conv1
theorem v3_7 : W7 m ρ c (Proc.devRef .tc main_v3) = W3 m ρ c (Proc.devRef .tc main_v3) :=
  (W7_of_ne m ρ c main_v3 (by decide)).trans ((v3_6 m ρ c).trans (v3_4 m ρ c))
theorem v6_6 : W6 m ρ c (Proc.devRef .tc main_v6) = W4 m ρ c (Proc.devRef .tc main_v6) := by read_conv1
theorem v6_7 : W7 m ρ c (Proc.devRef .tc main_v6) = W3 m ρ c (Proc.devRef .tc main_v6) :=
  (W7_of_ne m ρ c main_v6 (by decide)).trans ((v6_6 m ρ c).trans (v6_4 m ρ c))
theorem v30_6 : W6 m ρ c (Proc.devRef .tc main_v30) = W4 m ρ c (Proc.devRef .tc main_v30) := by read_conv1
theorem v30_7 : W7 m ρ c (Proc.devRef .tc main_v30) = W3 m ρ c (Proc.devRef .tc main_v30) :=
  (W7_of_ne m ρ c main_v30 (by decide)).trans ((v30_6 m ρ c).trans (v30_4 m ρ c))
theorem arg4_6 : W6 m ρ c (Proc.devRef .tc main_arg4) = m ((c.tc : Thread nD τ).loc main_arg4) :=
  (show W6 m ρ c (Proc.devRef .tc main_arg4) = W4 m ρ c (Proc.devRef .tc main_arg4) by read_conv1).trans (arg4_4 m ρ c)
theorem arg5_6 : W6 m ρ c (Proc.devRef .tc main_arg5) = m ((c.tc : Thread nD τ).loc main_arg5) :=
  (show W6 m ρ c (Proc.devRef .tc main_arg5) = W4 m ρ c (Proc.devRef .tc main_arg5) by read_conv1).trans (arg5_4 m ρ c)
theorem arg6_6 : W6 m ρ c (Proc.devRef .tc main_arg6) = m ((c.tc : Thread nD τ).loc main_arg6) :=
  (show W6 m ρ c (Proc.devRef .tc main_arg6) = W4 m ρ c (Proc.devRef .tc main_arg6) by read_conv1).trans (arg6_4 m ρ c)
theorem arg7_6 : W6 m ρ c (Proc.devRef .tc main_arg7) = m ((c.tc : Thread nD τ).loc main_arg7) :=
  (show W6 m ρ c (Proc.devRef .tc main_arg7) = W4 m ρ c (Proc.devRef .tc main_arg7) by read_conv1).trans (arg7_4 m ρ c)
theorem arg5_7 : W7 m ρ c (Proc.devRef .tc main_arg5) = m ((c.tc : Thread nD τ).loc main_arg5) := (W7_of_ne m ρ c main_arg5 (by decide)).trans (arg5_6 m ρ c)
theorem arg6_7 : W7 m ρ c (Proc.devRef .tc main_arg6) = m ((c.tc : Thread nD τ).loc main_arg6) := (W7_of_ne m ρ c main_arg6 (by decide)).trans (arg6_6 m ρ c)
theorem arg7_7 : W7 m ρ c (Proc.devRef .tc main_arg7) = m ((c.tc : Thread nD τ).loc main_arg7) := (W7_of_ne m ρ c main_arg7 (by decide)).trans (arg7_6 m ρ c)

/-! ## Through layer 2's host operations and the third region -/

theorem v3_9 : W9 m ρ c (Proc.devRef .tc main_v3) = W7 m ρ c (Proc.devRef .tc main_v3) := by read_conv2
theorem v3_10 : W10 m ρ c (Proc.devRef .tc main_v3) = W3 m ρ c (Proc.devRef .tc main_v3) :=
  (W10_of_ne m ρ c main_v3 (by decide)).trans ((v3_9 m ρ c).trans (v3_7 m ρ c))
theorem v6_9 : W9 m ρ c (Proc.devRef .tc main_v6) = W7 m ρ c (Proc.devRef .tc main_v6) := by read_conv2
theorem v6_10 : W10 m ρ c (Proc.devRef .tc main_v6) = W3 m ρ c (Proc.devRef .tc main_v6) :=
  (W10_of_ne m ρ c main_v6 (by decide)).trans ((v6_9 m ρ c).trans (v6_7 m ρ c))
theorem v30_9 : W9 m ρ c (Proc.devRef .tc main_v30) = W7 m ρ c (Proc.devRef .tc main_v30) := by read_conv2
theorem v30_10 : W10 m ρ c (Proc.devRef .tc main_v30) = W3 m ρ c (Proc.devRef .tc main_v30) :=
  (W10_of_ne m ρ c main_v30 (by decide)).trans ((v30_9 m ρ c).trans (v30_7 m ρ c))
theorem arg6_9 : W9 m ρ c (Proc.devRef .tc main_arg6) = m ((c.tc : Thread nD τ).loc main_arg6) :=
  (show W9 m ρ c (Proc.devRef .tc main_arg6) = W7 m ρ c (Proc.devRef .tc main_arg6) by read_conv2).trans (arg6_7 m ρ c)
theorem arg7_9 : W9 m ρ c (Proc.devRef .tc main_arg7) = m ((c.tc : Thread nD τ).loc main_arg7) :=
  (show W9 m ρ c (Proc.devRef .tc main_arg7) = W7 m ρ c (Proc.devRef .tc main_arg7) by read_conv2).trans (arg7_7 m ρ c)
theorem arg7_10 : W10 m ρ c (Proc.devRef .tc main_arg7) = m ((c.tc : Thread nD τ).loc main_arg7) := (W10_of_ne m ρ c main_arg7 (by decide)).trans (arg7_9 m ρ c)

end Cert.KernelIdeal.Hand

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibBlockMatmul.lean ====
/-
  GENERAL LEMMAS. One row tile of a matrix product against the whole product.

  A kernel that tiles only the rows of `X · W` computes, at grid point `t`, the product of a block of `tm` rows of `X`
  with the whole of `W`, accumulated into zero. At the exact values rounding an operand to a narrower format is the
  identity, a product into a zero accumulator is the plain contraction sum, and the host's `dot_general` is the same sum:
  so the entry `(p, q)` of the tile's product is the entry `(r, q)` of the whole product as soon as row `p` of the tile
  is row `r` of `X`. Both sums are carried to `∑ k : Fin K` by the re-indexing lemma for plain dot records; no law of the
  extended reals beyond the congruence of a sum is used, so nothing here asks for finiteness.
-/
import Idealize.ShloMosaic.PureOps.Ideal
import Idealize.ShloMosaic.PureOps.Ideal.Laws
import Idealize.ShloMosaic.PureOps.Dims
import Idealize.ShloMosaic.Lib.ValueIdx
import proofs.«101970_j51616916963749_1_alg».proof.Proof.LibDotSum

noncomputable section

namespace Cert.BlockMatmul

open Idealize.ShloMosaic Idealize.ShloMosaic.ValueIdx

/-- The product of two arrays into the zero accumulator, read at `j`, as the sum over the contracted axis. -/
theorem matmul_zero_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul d prec l r (constant (F := Ideal) (⟨2, ![M, N]⟩ : Shape) .f32 0x00000000#32) j
      = ∑ k : Fin K, (l (ix2 (j 0) k) : EReal) * (r (ix2 k (j 1)) : EReal) :=
  (Ideal.matmul_constant_zero_apply d prec l r j).trans
    (Cert.LibDotSum.sum_contr_eq_sum_fin d hrank hsize hl0 hl1 hr0 hr1 l r j)

/-- The host's `dot_general` of two arrays, read at `j`, as the sum over the contracted axis. -/
theorem dotGeneral_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral d prec sched l r j
      = ∑ k : Fin K, (l (ix2 (j 0) k) : EReal) * (r (ix2 k (j 1)) : EReal) :=
  (Ideal.dotGeneral_apply d prec sched l r j).trans
    (Cert.LibDotSum.sum_contr_eq_sum_fin d hrank hsize hl0 hl1 hr0 hr1 l r j)

/-- Two contraction sums over `Fin K` agree when their rows and columns do, term by term: entry `y` of a tile's product is
    entry `i` of the whole product when row `y 0` of the tile is row `i 0` of the whole left operand and column `y 1` of
    the tile's right operand is column `i 1` of the whole right operand. -/
theorem sum_rows_cols {tm M K N : Nat}
    (x0 : (⟨2, ![tm, K]⟩ : Shape).Idx → EReal) (x1 : (⟨2, ![K, N]⟩ : Shape).Idx → EReal)
    (X : (⟨2, ![M, K]⟩ : Shape).Idx → EReal) (W : (⟨2, ![K, N]⟩ : Shape).Idx → EReal)
    (y : (⟨2, ![tm, N]⟩ : Shape).Idx) (i : (⟨2, ![M, N]⟩ : Shape).Idx)
    (hx0 : ∀ k : Fin K, x0 (ix2 (y 0) k) = X (ix2 (i 0) k))
    (hx1 : ∀ k : Fin K, x1 (ix2 k (y 1)) = W (ix2 k (i 1))) :
    ∑ k : Fin K, x0 (ix2 (y 0) k) * x1 (ix2 k (y 1)) = ∑ k : Fin K, X (ix2 (i 0) k) * W (ix2 k (i 1)) :=
  Finset.sum_congr rfl fun k _ => by rw [hx0 k, hx1 k]

end Cert.BlockMatmul

end
-- ==== Proof.Layer1Product.lean ====
/-
  Layer 1's dense product, read off the row-tiled pipeline.

  The first pallas region multiplies the node features `x` ([50000, 1433]) by `W1` ([1433, 256]) in 50 row tiles of 1000
  rows: at point `t` the body reads rows `1000 t … 1000 t + 999` of `x` and the whole of `W1`, and writes the tile's
  product into rows `1000 t … 1000 t + 999` of the result. Entry `(p, q)` of the tile's product is
  `∑ k, x (1000 t + p, k) · W1 (k, q)`, which is entry `(1000 t + p, q)` of the whole product `x · W1` as the host's
  `dot_general` defines it. The 50 tiles cover every row, so after the region the result array IS the whole product.
  Stated at any contents `V` of the buffers at the region's entry.
-/
import proofs.«101970_j51616916963749_1_alg».proof.Proof.Gen.KernelIdeal.Frame
import proofs.«101970_j51616916963749_1_alg».proof.Proof.Gen.ReferenceIdeal
import proofs.«101970_j51616916963749_1_alg».proof.Proof.LibBlockMatmul
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The whole product `x · W1` of the two arrays the region reads, as the host's `dot_general` of them. -/
def prod (X : FVec Ideal S50000x1433 .f32) (W : FVec Ideal S1433x256 .f32) : FVec Ideal S50000x256 .f32 :=
  Host.dotGeneral (F := Ideal) Cert.ReferenceIdeal.dot_S50000x1433_S1433x256_S50000x256_1_0_0_1_n_n none X W

/-- Entry `i` of the whole product is the sum over the 1433 features. -/
theorem prod_at (X : FVec Ideal S50000x1433 .f32) (W : FVec Ideal S1433x256 .f32) (i : S50000x256.Idx) :
    prod X W i = ∑ k : Fin 1433, (X (ix2 (i 0) k) : EReal) * (W (ix2 k (i 1)) : EReal) := by
  unfold prod
  simp only [Host.dotGeneral]
  exact Cert.BlockMatmul.dotGeneral_fin Cert.ReferenceIdeal.dot_S50000x1433_S1433x256_S50000x256_1_0_0_1_n_n rfl rfl
    (fun _ _ => rfl) (fun _ _ => rfl) (fun _ _ => rfl) (fun _ _ => rfl) none _ X W i

/-- Entry `y` of one tile's product is the sum over the 1433 features of the tile's row against the weights' column:
    the body rounds both operands to bf16 (the identity at the exact values) and multiplies into zero. -/
theorem tile_at (x0 : Vec Ideal S1000x1433 .f32) (x1 : Vec Ideal S1433x256 .f32) (y : S1000x256.Idx) :
    k0_pay1 (F := Ideal) x0 x1 y = ∑ k : Fin 1433, (x0 (ix2 (y 0) k) : EReal) * (x1 (ix2 k (y 1)) : EReal) := by
  unfold k0_pay1
  exact Cert.BlockMatmul.matmul_zero_fin dot_S1000x1433_S1433x256_S1000x256_1_0_0_1_n_n rfl rfl
    (fun _ _ => rfl) (fun _ _ => rfl) (fun _ _ => rfl) (fun _ _ => rfl) none
    (truncf .bf16 x0 bitsLt_bf16_f32) (truncf .bf16 x1 bitsLt_bf16_f32) y

/-- The printed index maps over the 50 points: the feature tile and the result tile are both tile `t` of the rows and take
    every column; the weights' block is the whole array at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is tile `t` of the whole product of the arrays as the region finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S1000x1433) hz, View.ld_unit_zero (S := S1433x256) hz]
  obtain ⟨e0, e1, e2, e3, e4, e5⟩ := idx_facts t
  funext y
  show k0_pay1 (iblk0 V c 0 t) (iblk0 V c 1 t) y = prod (V c main_arg0) (V c main_arg2) (((cfg0.win 2).blk t).view.emb y)
  refine (tile_at (iblk0 V c 0 t) (iblk0 V c 1 t) y).trans ?_
  refine Eq.trans ?_ (prod_at (V c main_arg0) (V c main_arg2) _).symm
  refine Cert.BlockMatmul.sum_rows_cols (iblk0 V c 0 t) (iblk0 V c 1 t) (V c main_arg0) (V c main_arg2) y _ (fun k => ?_) (fun k => ?_)
  · show V c main_arg0 (((cfg0.win 0).blk t).view.emb (ix2 (y 0) k)) = _
    refine congrArg (V c main_arg0) (funext fun a => Fin.ext ?_)
    match a with
    | ⟨0, _⟩ =>
      show win0_0.index t (0 : Fin 2) * 1000 + 1 * (y 0).val = win0_2.index t (0 : Fin 2) * 1000 + 1 * (y 0).val
      rw [e0, e4]
    | ⟨1, _⟩ =>
      show win0_0.index t (1 : Fin 2) * 1433 + 1 * k.val = k.val
      rw [e1]; omega
  · show V c main_arg2 (((cfg0.win 1).blk t).view.emb (ix2 k (y 1))) = _
    refine congrArg (V c main_arg2) (funext fun a => Fin.ext ?_)
    match a with
    | ⟨0, _⟩ =>
      show win0_1.index t (0 : Fin 2) * 1433 + 1 * k.val = k.val
      rw [e2]; omega
    | ⟨1, _⟩ =>
      show win0_1.index t (1 : Fin 2) * 256 + 1 * (y 1).val = win0_2.index t (1 : Fin 2) * 256 + 1 * (y 1).val
      rw [e3, e5]

/-- An index of the result array is in point `t`'s tile iff each coordinate is in the tile's range on its axis. -/
theorem mem_blk (t : Fin cfg0.N) (i : S50000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v31).slice (win0_2.rect t)).set ↔ _
  rw [View.set_slice_whole, Rect.mem_set_unit]
  exact Iff.rfl

/-- Every row of the result lies in a tile: row `r` in tile `r / 1000`. -/
theorem cover (i : S50000x256.Idx) :
    ∃ t : Fin cfg0.N, (cfg0.win 2).flush t = true ∧ i ∈ ((cfg0.win 2).blk t).view.set := by
  have h0 : (i 0).val < 50000 := idx2_lt0 i
  have h1 : (i 1).val < 256 := idx2_lt1 i
  have hN : cfg0.N = 50 := N_0
  have hlt : (i 0).val / 1000 < cfg0.N := by rw [hN]; omega
  obtain ⟨-, -, -, -, e4, e5⟩ := idx_facts ⟨(i 0).val / 1000, hlt⟩
  refine ⟨⟨(i 0).val / 1000, hlt⟩, flush0_2 _, ?_⟩
  rw [mem_blk]
  intro a
  match a with
  | ⟨0, _⟩ =>
    show win0_2.index ⟨(i 0).val / 1000, hlt⟩ (0 : Fin 2) * 1000 ≤ (i 0).val ∧ (i 0).val < win0_2.index ⟨(i 0).val / 1000, hlt⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, hlt⟩ (1 : Fin 2) * 256 ≤ (i 1).val ∧ (i 1).val < win0_2.index ⟨(i 0).val / 1000, hlt⟩ (1 : Fin 2) * 256 + 256
    rw [e5]; omega

/-- THE RESULT ARRAY after the region is the whole product of the two arrays the region found. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Layer1

end
-- ==== Proof.Layer2Product.lean ====
/-
  Layer 2's dense product, read off the row-tiled pipeline.

  The second pallas region multiplies the hidden features `h` ([50000, 256]) by `W2` ([256, 256]) in 25 row tiles of 2000
  rows: at point `t` the body reads rows `2000 t … 2000 t + 1999` of `h` and the whole of `W2`, and writes the tile's
  product into rows `2000 t … 2000 t + 1999` of the result. Entry `(p, q)` of the tile's product is
  `∑ k, h (2000 t + p, k) · W2 (k, q)`, which is entry `(2000 t + p, q)` of the whole product `h · W2` as the host's
  `dot_general` defines it. The 25 tiles cover every row, so after the region the result array IS the whole product.
  Stated at any contents `V` of the buffers at the region's entry.
-/
import proofs.«101970_j51616916963749_1_alg».proof.Proof.Gen.KernelIdeal.Frame
import proofs.«101970_j51616916963749_1_alg».proof.Proof.Gen.ReferenceIdeal
import proofs.«101970_j51616916963749_1_alg».proof.Proof.LibBlockMatmul
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The whole product `h · W2` of the two arrays the region reads, as the host's `dot_general` of them. -/
def prod (X : FVec Ideal S50000x256 .f32) (W : FVec Ideal S256x256 .f32) : FVec Ideal S50000x256 .f32 :=
  Host.dotGeneral (F := Ideal) Cert.ReferenceIdeal.dot_S50000x256_S256x256_S50000x256_1_0_0_1_n_n none X W

/-- Entry `i` of the whole product is the sum over the 256 hidden features. -/
theorem prod_at (X : FVec Ideal S50000x256 .f32) (W : FVec Ideal S256x256 .f32) (i : S50000x256.Idx) :
    prod X W i = ∑ k : Fin 256, (X (ix2 (i 0) k) : EReal) * (W (ix2 k (i 1)) : EReal) := by
  unfold prod
  simp only [Host.dotGeneral]
  exact Cert.BlockMatmul.dotGeneral_fin Cert.ReferenceIdeal.dot_S50000x256_S256x256_S50000x256_1_0_0_1_n_n rfl rfl
    (fun _ _ => rfl) (fun _ _ => rfl) (fun _ _ => rfl) (fun _ _ => rfl) none _ X W i

/-- Entry `y` of one tile's product is the sum over the 256 hidden features of the tile's row against the weights' column:
    the body rounds both operands to bf16 (the identity at the exact values) and multiplies into zero (the cast of the tile to
    its own shape is the identity). -/
theorem tile_at (x0 : Vec Ideal S2000x256 .f32) (x1 : Vec Ideal S256x256 .f32) (y : S2000x256.Idx) :
    k1_pay1 (F := Ideal) x0 x1 y = ∑ k : Fin 256, (x0 (ix2 (y 0) k) : EReal) * (x1 (ix2 k (y 1)) : EReal) := by
  unfold k1_pay1
  rw [shapeCast_self]
  exact Cert.BlockMatmul.matmul_zero_fin dot_S2000x256_S256x256_S2000x256_1_0_0_1_n_n rfl rfl
    (fun _ _ => rfl) (fun _ _ => rfl) (fun _ _ => rfl) (fun _ _ => rfl) none
    (truncf .bf16 x0 bitsLt_bf16_f32) (truncf .bf16 x1 bitsLt_bf16_f32) y

/-- The printed index maps over the 25 points: the feature tile and the result tile are both tile `t` of the rows and take
    every column; the weights' block is the whole array at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is tile `t` of the whole product of the arrays as the region finds them. -/
theorem flushed_eq (c : Dev nD) (t : Fin cfg1.N) :
    (dat1 V c).flushed 2 t = ((cfg1.win 2).blk t).view.read (Elt Ideal) (prod (V c main_v48) (V c main_arg4)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x256) hz]
  obtain ⟨e0, e1, e2, e3, e4, e5⟩ := idx_facts t
  funext y
  show k1_pay1 (iblk1 V c 0 t) (iblk1 V c 1 t) y = prod (V c main_v48) (V c main_arg4) (((cfg1.win 2).blk t).view.emb y)
  refine (tile_at (iblk1 V c 0 t) (iblk1 V c 1 t) y).trans ?_
  refine Eq.trans ?_ (prod_at (V c main_v48) (V c main_arg4) _).symm
  refine Cert.BlockMatmul.sum_rows_cols (iblk1 V c 0 t) (iblk1 V c 1 t) (V c main_v48) (V c main_arg4) y _ (fun k => ?_) (fun k => ?_)
  · show V c main_v48 (((cfg1.win 0).blk t).view.emb (ix2 (y 0) k)) = _
    refine congrArg (V c main_v48) (funext fun a => Fin.ext ?_)
    match a with
    | ⟨0, _⟩ =>
      show win1_0.index t (0 : Fin 2) * 2000 + 1 * (y 0).val = win1_2.index t (0 : Fin 2) * 2000 + 1 * (y 0).val
      rw [e0, e4]
    | ⟨1, _⟩ =>
      show win1_0.index t (1 : Fin 2) * 256 + 1 * k.val = k.val
      rw [e1]; omega
  · show V c main_arg4 (((cfg1.win 1).blk t).view.emb (ix2 k (y 1))) = _
    refine congrArg (V c main_arg4) (funext fun a => Fin.ext ?_)
    match a with
    | ⟨0, _⟩ =>
      show win1_1.index t (0 : Fin 2) * 256 + 1 * k.val = k.val
      rw [e2]; omega
    | ⟨1, _⟩ =>
      show win1_1.index t (1 : Fin 2) * 256 + 1 * (y 1).val = win1_2.index t (1 : Fin 2) * 256 + 1 * (y 1).val
      rw [e3, e5]

/-- An index of the result array is in point `t`'s tile iff each coordinate is in the tile's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v49).slice (win1_2.rect t)).set ↔ _
  rw [View.set_slice_whole, Rect.mem_set_unit]
  exact Iff.rfl

/-- Every row of the result lies in a tile: row `r` in tile `r / 2000`. -/
theorem cover (i : S50000x256.Idx) :
    ∃ t : Fin cfg1.N, (cfg1.win 2).flush t = true ∧ i ∈ ((cfg1.win 2).blk t).view.set := by
  have h0 : (i 0).val < 50000 := idx2_lt0 i
  have h1 : (i 1).val < 256 := idx2_lt1 i
  have hN : cfg1.N = 25 := N_1
  have hlt : (i 0).val / 2000 < cfg1.N := by rw [hN]; omega
  obtain ⟨-, -, -, -, e4, e5⟩ := idx_facts ⟨(i 0).val / 2000, hlt⟩
  refine ⟨⟨(i 0).val / 2000, hlt⟩, flush1_2 _, ?_⟩
  rw [mem_blk]
  intro a
  match a with
  | ⟨0, _⟩ =>
    show win1_2.index ⟨(i 0).val / 2000, hlt⟩ (0 : Fin 2) * 2000 ≤ (i 0).val ∧ (i 0).val < win1_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, hlt⟩ (1 : Fin 2) * 256 ≤ (i 1).val ∧ (i 1).val < win1_2.index ⟨(i 0).val / 2000, hlt⟩ (1 : Fin 2) * 256 + 256
    rw [e5]; omega

/-- THE RESULT ARRAY after the region is the whole product of the two arrays the region found. -/
theorem final (c : Dev nD) : (dat1 V c).arrAt 2 cfg1.N = prod (V c main_v48) (V c main_arg4) :=
  (dat1 V c).arrAt_eq_of_cover 2 (prod (V c main_v48) (V c main_arg4)) (fun t _ => flushed_eq V c t) cover

end Cert.KernelIdeal.Layer2

end
-- ==== Proof.Layer3Product.lean ====
/-
  Layer 3's dense product, read off the row-tiled pipeline.

  The third pallas region multiplies the hidden features `h` ([50000, 256]) by `W3` ([256, 7]) in 25 row tiles of 2000
  rows: at point `t` the body reads rows `2000 t … 2000 t + 1999` of `h` and the whole of `W3`, and writes the tile's
  product into rows `2000 t … 2000 t + 1999` of the result. Entry `(p, q)` of the tile's product is
  `∑ k, h (2000 t + p, k) · W3 (k, q)`, which is entry `(2000 t + p, q)` of the whole product `h · W3` as the host's
  `dot_general` defines it. The 25 tiles cover every row, so after the region the result array IS the whole product.
  Stated at any contents `V` of the buffers at the region's entry.
-/
import proofs.«101970_j51616916963749_1_alg».proof.Proof.Gen.KernelIdeal.Frame
import proofs.«101970_j51616916963749_1_alg».proof.Proof.Gen.ReferenceIdeal
import proofs.«101970_j51616916963749_1_alg».proof.Proof.LibBlockMatmul
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The whole product `h · W3` of the two arrays the region reads, as the host's `dot_general` of them. -/
def prod (X : FVec Ideal S50000x256 .f32) (W : FVec Ideal S256x7 .f32) : FVec Ideal S50000x7 .f32 :=
  Host.dotGeneral (F := Ideal) Cert.ReferenceIdeal.dot_S50000x256_S256x7_S50000x7_1_0_0_1_n_n none X W

/-- Entry `i` of the whole product is the sum over the 256 hidden features. -/
theorem prod_at (X : FVec Ideal S50000x256 .f32) (W : FVec Ideal S256x7 .f32) (i : S50000x7.Idx) :
    prod X W i = ∑ k : Fin 256, (X (ix2 (i 0) k) : EReal) * (W (ix2 k (i 1)) : EReal) := by
  unfold prod
  simp only [Host.dotGeneral]
  exact Cert.BlockMatmul.dotGeneral_fin Cert.ReferenceIdeal.dot_S50000x256_S256x7_S50000x7_1_0_0_1_n_n rfl rfl
    (fun _ _ => rfl) (fun _ _ => rfl) (fun _ _ => rfl) (fun _ _ => rfl) none _ X W i

/-- Entry `y` of one tile's product is the sum over the 256 hidden features of the tile's row against the weights' column:
    the body rounds both operands to bf16 (the identity at the exact values) and multiplies into zero (the cast of the tile to
    its own shape is the identity). -/
theorem tile_at (x0 : Vec Ideal S2000x256 .f32) (x1 : Vec Ideal S256x7 .f32) (y : S2000x7.Idx) :
    k2_pay1 (F := Ideal) x0 x1 y = ∑ k : Fin 256, (x0 (ix2 (y 0) k) : EReal) * (x1 (ix2 k (y 1)) : EReal) := by
  unfold k2_pay1
  rw [shapeCast_self]
  exact Cert.BlockMatmul.matmul_zero_fin dot_S2000x256_S256x7_S2000x7_1_0_0_1_n_n rfl rfl
    (fun _ _ => rfl) (fun _ _ => rfl) (fun _ _ => rfl) (fun _ _ => rfl) none
    (truncf .bf16 x0 bitsLt_bf16_f32) (truncf .bf16 x1 bitsLt_bf16_f32) y

/-- The printed index maps over the 25 points: the feature tile and the result tile are both tile `t` of the rows and take
    every column; the weights' block is the whole array at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is tile `t` of the whole product of the arrays as the region finds them. -/
theorem flushed_eq (c : Dev nD) (t : Fin cfg2.N) :
    (dat2 V c).flushed 2 t = ((cfg2.win 2).blk t).view.read (Elt Ideal) (prod (V c main_v66) (V c main_arg6)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x7) hz]
  obtain ⟨e0, e1, e2, e3, e4, e5⟩ := idx_facts t
  funext y
  show k2_pay1 (iblk2 V c 0 t) (iblk2 V c 1 t) y = prod (V c main_v66) (V c main_arg6) (((cfg2.win 2).blk t).view.emb y)
  refine (tile_at (iblk2 V c 0 t) (iblk2 V c 1 t) y).trans ?_
  refine Eq.trans ?_ (prod_at (V c main_v66) (V c main_arg6) _).symm
  refine Cert.BlockMatmul.sum_rows_cols (iblk2 V c 0 t) (iblk2 V c 1 t) (V c main_v66) (V c main_arg6) y _ (fun k => ?_) (fun k => ?_)
  · show V c main_v66 (((cfg2.win 0).blk t).view.emb (ix2 (y 0) k)) = _
    refine congrArg (V c main_v66) (funext fun a => Fin.ext ?_)
    match a with
    | ⟨0, _⟩ =>
      show win2_0.index t (0 : Fin 2) * 2000 + 1 * (y 0).val = win2_2.index t (0 : Fin 2) * 2000 + 1 * (y 0).val
      rw [e0, e4]
    | ⟨1, _⟩ =>
      show win2_0.index t (1 : Fin 2) * 256 + 1 * k.val = k.val
      rw [e1]; omega
  · show V c main_arg6 (((cfg2.win 1).blk t).view.emb (ix2 k (y 1))) = _
    refine congrArg (V c main_arg6) (funext fun a => Fin.ext ?_)
    match a with
    | ⟨0, _⟩ =>
      show win2_1.index t (0 : Fin 2) * 256 + 1 * k.val = k.val
      rw [e2]; omega
    | ⟨1, _⟩ =>
      show win2_1.index t (1 : Fin 2) * 7 + 1 * (y 1).val = win2_2.index t (1 : Fin 2) * 7 + 1 * (y 1).val
      rw [e3, e5]

/-- An index of the result array is in point `t`'s tile iff each coordinate is in the tile's range on its axis. -/
theorem mem_blk (t : Fin cfg2.N) (i : S50000x7.Idx) :
    i ∈ ((cfg2.win 2).blk t).view.set ↔ ∀ a : Fin 2, win2_2.index t a * S2000x7.size a ≤ (i a).val ∧ (i a).val < win2_2.index t a * S2000x7.size a + S2000x7.size a := by
  show i ∈ ((View.whole main_v67).slice (win2_2.rect t)).set ↔ _
  rw [View.set_slice_whole, Rect.mem_set_unit]
  exact Iff.rfl

/-- Every row of the result lies in a tile: row `r` in tile `r / 2000`. -/
theorem cover (i : S50000x7.Idx) :
    ∃ t : Fin cfg2.N, (cfg2.win 2).flush t = true ∧ i ∈ ((cfg2.win 2).blk t).view.set := by
  have h0 : (i 0).val < 50000 := idx2_lt0 i
  have h1 : (i 1).val < 7 := idx2_lt1 i
  have hN : cfg2.N = 25 := N_2
  have hlt : (i 0).val / 2000 < cfg2.N := by rw [hN]; omega
  obtain ⟨-, -, -, -, e4, e5⟩ := idx_facts ⟨(i 0).val / 2000, hlt⟩
  refine ⟨⟨(i 0).val / 2000, hlt⟩, flush2_2 _, ?_⟩
  rw [mem_blk]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, hlt⟩ (1 : Fin 2) * 7 ≤ (i 1).val ∧ (i 1).val < win2_2.index ⟨(i 0).val / 2000, hlt⟩ (1 : Fin 2) * 7 + 7
    rw [e5]; omega

/-- THE RESULT ARRAY after the region is the whole product of the two arrays the region found. -/
theorem final (c : Dev nD) : (dat2 V c).arrAt 2 cfg2.N = prod (V c main_v66) (V c main_arg6) :=
  (dat2 V c).arrAt_eq_of_cover 2 (prod (V c main_v66) (V c main_arg6)) (fun t _ => flushed_eq V c t) cover

end Cert.KernelIdeal.Layer3

end
-- ==== Proof.RefRun.lean ====
/-
  The reference program's run, cut at its three dense products.

  The reference is one straight line of 122 host operations: the graph bookkeeping (source and target lists with self loops,
  degrees, the per-edge coefficient), then three times a dense product followed by gather, scale, scatter-add, bias (and
  relu, or log-softmax after the last). Its run ends with every buffer at the fold of the operations over the launch memory;
  the line is cut here into seven stretches — before the first product, each product, and what follows each — so that the
  buffers' contents can be read one stretch at a time.
-/
import proofs.«101970_j51616916963749_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The graph bookkeeping: the 41 operations before the first product. -/
abbrev opsPre : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v7 main_v22 (mulf : (⟨S850000, .f32⟩ : BufTy).Contents (Elt F) → (⟨S850000, .f32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v14 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)) ]
/-- The first dense product, `x · W1`. -/
abbrev opsDot1 : List (HloOp τ sig (Elt F)) :=
  [ binary main_arg0 main_arg2 main_v31 ((fun l r => Host.dotGeneral dot_S50000x1433_S1433x256_S50000x256_1_0_0_1_n_n none l r) : (⟨S50000x1433, .f32⟩ : BufTy).Contents (Elt F) → (⟨S1433x256, .f32⟩ : BufTy).Contents (Elt F) → (⟨S50000x256, .f32⟩ : BufTy).Contents (Elt F)) ]
/-- Layer 1 after its product: gather, scale, scatter-add, bias, relu. -/
abbrev opsConv1 : List (HloOp τ sig (Elt F)) :=
  [ nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v30 main_v39 (broadcastInDim S850000x1 ![0] bcast_S850000_S850000x1_0 : (⟨S850000, .f32⟩ : BufTy).Contents (Elt F) → (⟨S850000x1, .f32⟩ : BufTy).Contents (Elt F)),
    unary main_v39 main_v40 (broadcastInDim S850000x256 ![0, 1] bcast_S850000x1_S850000x256_0_1 : (⟨S850000x1, .f32⟩ : BufTy).Contents (Elt F) → (⟨S850000x256, .f32⟩ : BufTy).Contents (Elt F)),
    binary main_v38 main_v40 main_v41 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v42 (broadcastInDim S50000x256 ![] bcast_S_S50000x256 : (⟨S_, .f32⟩ : BufTy).Contents (Elt F) → (⟨S50000x256, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v45 (broadcastInDim S1x256 ![1] bcast_S256_S1x256_1 : (⟨S256, .f32⟩ : BufTy).Contents (Elt F) → (⟨S1x256, .f32⟩ : BufTy).Contents (Elt F)),
    unary main_v45 main_v46 (broadcastInDim S50000x256 ![0, 1] bcast_S1x256_S50000x256_0_1 : (⟨S1x256, .f32⟩ : BufTy).Contents (Elt F) → (⟨S50000x256, .f32⟩ : BufTy).Contents (Elt F)),
    binary main_v44 main_v46 main_v47 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v47) (TRef.of (T := ⟨S50000x256, .f32⟩) main_call1_v0) (TRef.of (T := ⟨S50000x256, .f32⟩) main_v48) maximumf ]
/-- The second dense product, `h1 · W2`. -/
abbrev opsDot2 : List (HloOp τ sig (Elt F)) :=
  [ binary main_v48 main_arg4 main_v49 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]
/-- Layer 2 after its product: gather, scale, scatter-add, bias, relu. -/
abbrev opsConv2 : List (HloOp τ sig (Elt F)) :=
  [ nullary main_c_9 (constantI S_ 32 0#32),
    unary main_c_9 main_v50 (broadcastInDim S850000 ![] bcast_S_S850000 : (⟨S_, .i32⟩ : BufTy).Contents (Elt F) → (⟨S850000, .i32⟩ : BufTy).Contents (Elt F)),
    binary main_v3 main_v50 main_v51 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v52 (broadcastInDim S850000 ![] bcast_S_S850000 : (⟨S_, .i32⟩ : BufTy).Contents (Elt F) → (⟨S850000, .i32⟩ : BufTy).Contents (Elt F)),
    binary main_v3 main_v52 main_v53 (addi : (⟨S850000, .i32⟩ : BufTy).Contents (Elt F) → (⟨S850000, .i32⟩ : BufTy).Contents (Elt F) → (⟨S850000, .i32⟩ : BufTy).Contents (Elt F)),
    ternary main_v51 main_v53 main_v3 main_v54 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v54 main_v55 (broadcastInDim S850000x1 ![0] bcast_S850000_S850000x1_0 : (⟨S850000, .i32⟩ : BufTy).Contents (Elt F) → (⟨S850000x1, .i32⟩ : BufTy).Contents (Elt F)),
    binary main_v49 main_v55 main_v56 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v30 main_v57 (broadcastInDim S850000x1 ![0] bcast_S850000_S850000x1_0 : (⟨S850000, .f32⟩ : BufTy).Contents (Elt F) → (⟨S850000x1, .f32⟩ : BufTy).Contents (Elt F)),
    unary main_v57 main_v58 (broadcastInDim S850000x256 ![0, 1] bcast_S850000x1_S850000x256_0_1 : (⟨S850000x1, .f32⟩ : BufTy).Contents (Elt F) → (⟨S850000x256, .f32⟩ : BufTy).Contents (Elt F)),
    binary main_v56 main_v58 main_v59 (mulf : (⟨S850000x256, .f32⟩ : BufTy).Contents (Elt F) → (⟨S850000x256, .f32⟩ : BufTy).Contents (Elt F) → (⟨S850000x256, .f32⟩ : BufTy).Contents (Elt F)),
    nullary main_cst_11 (constant S_ .f32 0x00000000#32),
    unary main_cst_11 main_v60 (broadcastInDim S50000x256 ![] bcast_S_S50000x256 : (⟨S_, .f32⟩ : BufTy).Contents (Elt F) → (⟨S50000x256, .f32⟩ : BufTy).Contents (Elt F)),
    unary main_v6 main_v61 (broadcastInDim S850000x1 ![0] bcast_S850000_S850000x1_0 : (⟨S850000, .i32⟩ : BufTy).Contents (Elt F) → (⟨S850000x1, .i32⟩ : BufTy).Contents (Elt F)),
    ternary main_v60 main_v61 main_v59 main_v62 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg5 main_v63 (broadcastInDim S1x256 ![1] bcast_S256_S1x256_1 : (⟨S256, .f32⟩ : BufTy).Contents (Elt F) → (⟨S1x256, .f32⟩ : BufTy).Contents (Elt F)),
    unary main_v63 main_v64 (broadcastInDim S50000x256 ![0, 1] bcast_S1x256_S50000x256_0_1 : (⟨S1x256, .f32⟩ : BufTy).Contents (Elt F) → (⟨S50000x256, .f32⟩ : BufTy).Contents (Elt F)),
    binary main_v62 main_v64 main_v65 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v65) (TRef.of (T := ⟨S50000x256, .f32⟩) main_call2_v0) (TRef.of (T := ⟨S50000x256, .f32⟩) main_v66) maximumf ]
/-- The third dense product, `h2 · W3`. -/
abbrev opsDot3 : List (HloOp τ sig (Elt F)) :=
  [ binary main_v66 main_arg6 main_v67 ((fun l r => Host.dotGeneral dot_S50000x256_S256x7_S50000x7_1_0_0_1_n_n none l r) : (⟨S50000x256, .f32⟩ : BufTy).Contents (Elt F) → (⟨S256x7, .f32⟩ : BufTy).Contents (Elt F) → (⟨S50000x7, .f32⟩ : BufTy).Contents (Elt F)) ]
/-- Layer 3 after its product: gather, scale, scatter-add, bias, log-softmax over the 7 classes. -/
abbrev opsConv3 : List (HloOp τ sig (Elt F)) :=
  [ nullary main_c_12 (constantI S_ 32 0#32),
    unary main_c_12 main_v68 (broadcastInDim S850000 ![] bcast_S_S850000 : (⟨S_, .i32⟩ : BufTy).Contents (Elt F) → (⟨S850000, .i32⟩ : BufTy).Contents (Elt F)),
    binary main_v3 main_v68 main_v69 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v70 (broadcastInDim S850000 ![] bcast_S_S850000 : (⟨S_, .i32⟩ : BufTy).Contents (Elt F) → (⟨S850000, .i32⟩ : BufTy).Contents (Elt F)),
    binary main_v3 main_v70 main_v71 (addi : (⟨S850000, .i32⟩ : BufTy).Contents (Elt F) → (⟨S850000, .i32⟩ : BufTy).Contents (Elt F) → (⟨S850000, .i32⟩ : BufTy).Contents (Elt F)),
    ternary main_v69 main_v71 main_v3 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v72 main_v73 (broadcastInDim S850000x1 ![0] bcast_S850000_S850000x1_0 : (⟨S850000, .i32⟩ : BufTy).Contents (Elt F) → (⟨S850000x1, .i32⟩ : BufTy).Contents (Elt F)),
    binary main_v67 main_v73 main_v74 ((fun x i => Host.gather gather_S50000x7_S850000x1_S850000x7_1_0_n_n_0_1_17 x i) : (⟨S50000x7, .f32⟩ : BufTy).Contents (Elt F) → (⟨S850000x1, .i32⟩ : BufTy).Contents (Elt F) → (⟨S850000x7, .f32⟩ : BufTy).Contents (Elt F)),
    unary main_v30 main_v75 (broadcastInDim S850000x1 ![0] bcast_S850000_S850000x1_0 : (⟨S850000, .f32⟩ : BufTy).Contents (Elt F) → (⟨S850000x1, .f32⟩ : BufTy).Contents (Elt F)),
    unary main_v75 main_v76 (broadcastInDim S850000x7 ![0, 1] bcast_S850000x1_S850000x7_0_1 : (⟨S850000x1, .f32⟩ : BufTy).Contents (Elt F) → (⟨S850000x7, .f32⟩ : BufTy).Contents (Elt F)),
    binary main_v74 main_v76 main_v77 (mulf : (⟨S850000x7, .f32⟩ : BufTy).Contents (Elt F) → (⟨S850000x7, .f32⟩ : BufTy).Contents (Elt F) → (⟨S850000x7, .f32⟩ : BufTy).Contents (Elt F)),
    nullary main_cst_14 (constant S_ .f32 0x00000000#32),
    unary main_cst_14 main_v78 (broadcastInDim S50000x7 ![] bcast_S_S50000x7 : (⟨S_, .f32⟩ : BufTy).Contents (Elt F) → (⟨S50000x7, .f32⟩ : BufTy).Contents (Elt F)),
    unary main_v6 main_v79 (broadcastInDim S850000x1 ![0] bcast_S850000_S850000x1_0 : (⟨S850000, .i32⟩ : BufTy).Contents (Elt F) → (⟨S850000x1, .i32⟩ : BufTy).Contents (Elt F)),
    ternary main_v78 main_v79 main_v77 main_v80 ((fun x i u => Host.scatterAdd scatter_S50000x7_S850000x1_S850000x7_1_0_0_1 x i u) : (⟨S50000x7, .f32⟩ : BufTy).Contents (Elt F) → (⟨S850000x1, .i32⟩ : BufTy).Contents (Elt F) → (⟨S850000x7, .f32⟩ : BufTy).Contents (Elt F) → (⟨S50000x7, .f32⟩ : BufTy).Contents (Elt F)),
    unary main_arg7 main_v81 (broadcastInDim S1x7 ![1] bcast_S7_S1x7_1 : (⟨S7, .f32⟩ : BufTy).Contents (Elt F) → (⟨S1x7, .f32⟩ : BufTy).Contents (Elt F)),
    unary main_v81 main_v82 (broadcastInDim S50000x7 ![0, 1] bcast_S1x7_S50000x7_0_1 : (⟨S1x7, .f32⟩ : BufTy).Contents (Elt F) → (⟨S50000x7, .f32⟩ : BufTy).Contents (Elt F)),
    binary main_v80 main_v82 main_v83 (addf : (⟨S50000x7, .f32⟩ : BufTy).Contents (Elt F) → (⟨S50000x7, .f32⟩ : BufTy).Contents (Elt F) → (⟨S50000x7, .f32⟩ : BufTy).Contents (Elt F)),
    TRef.nullary (TRef.of (T := ⟨S_, .f32⟩) main_call3_cst) (constant S_ .f32 0xFF800000#32),
    TRef.binary (TRef.of (T := ⟨S50000x7, .f32⟩) main_v83) (TRef.of (T := ⟨S_, .f32⟩) main_call3_cst) (TRef.of (T := ⟨S50000, .f32⟩) main_call3_v0) (fun x v => Host.reduce FloatOps.maximumf x v reducesTo_S50000x7_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x7, .f32⟩) main_call3_v4) (broadcastInDim S50000x7 ![0, 1] bcast_S50000x1_S50000x7_0_1),
    TRef.binary (TRef.of (T := ⟨S50000x7, .f32⟩) main_v83) (TRef.of (T := ⟨S50000x7, .f32⟩) main_call3_v4) (TRef.of (T := ⟨S50000x7, .f32⟩) main_call3_v5) subf,
    TRef.unary (TRef.of (T := ⟨S50000x7, .f32⟩) main_call3_v5) (TRef.of (T := ⟨S50000x7, .f32⟩) main_call3_v6) Host.exp,
    TRef.nullary (TRef.of (T := ⟨S_, .f32⟩) main_call3_cst_1) (constant S_ .f32 0x00000000#32),
    TRef.binary (TRef.of (T := ⟨S50000x7, .f32⟩) main_call3_v6) (TRef.of (T := ⟨S_, .f32⟩) main_call3_cst_1) (TRef.of (T := ⟨S50000, .f32⟩) main_call3_v7) (fun x v => Host.reduceAdd x v reducesTo_S50000x7_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x7, .f32⟩) main_call3_v10) (broadcastInDim S50000x7 ![0, 1] bcast_S50000x1_S50000x7_0_1),
    TRef.binary (TRef.of (T := ⟨S50000x7, .f32⟩) main_call3_v5) (TRef.of (T := ⟨S50000x7, .f32⟩) main_call3_v10) (TRef.of (T := ⟨S50000x7, .f32⟩) main_v84) subf ]

/-- @main's 122 operations, in order (a called function's operations stand in its call's place). -/
abbrev ops : List (HloOp τ sig (Elt F)) :=
  opsPre ++ (opsDot1 ++ (opsConv1 ++ (opsDot2 ++ (opsConv2 ++ (opsDot3 ++ opsConv3)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- The buffers' contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 8192 in
theorem ops_sub : (ops : List (HloOp τ sig (Elt F))).Forall fun op => op.bufs ⊆ tcRefs τ sig := by
  simp only [ops, opsPre, opsDot1, opsConv1, opsDot2, opsConv2, opsDot3, opsConv3, List.cons_append, List.nil_append, List.Forall,
    nullary_bufs_sub, unary_bufs_sub, binary_bufs_sub, ternary_bufs_sub, reshape_bufs_sub, and_self]

/-! ## The contents at the cuts -/

variable (m : (ℓ : Loc nD τ sig) → Buf (Elt F) ℓ)

/-- Before the first product. -/
def R3 (c : Dev nD) : Valuation τ sig (Elt F) := after opsPre (launchContents m c)
/-- After the first product. -/
def R4 (c : Dev nD) : Valuation τ sig (Elt F) := after opsDot1 (R3 m c)
/-- Before the second product. -/
def R6 (c : Dev nD) : Valuation τ sig (Elt F) := after opsConv1 (R4 m c)
/-- After the second product. -/
def R7 (c : Dev nD) : Valuation τ sig (Elt F) := after opsDot2 (R6 m c)
/-- Before the third product. -/
def R9 (c : Dev nD) : Valuation τ sig (Elt F) := after opsConv2 (R7 m c)
/-- After the third product. -/
def R10 (c : Dev nD) : Valuation τ sig (Elt F) := after opsDot3 (R9 m c)
/-- At the return. -/
def R12 (c : Dev nD) : Valuation τ sig (Elt F) := after opsConv3 (R10 m c)

theorem after_ops (c : Dev nD) : after ops (launchContents m c) = R12 m c := by
  unfold R12 R10 R9 R7 R6 R4 R3
  simp only [ops, after_append]

/-- Every weakly fair execution of the reference terminates with each buffer at the fold of the operations over the launch
    memory, read here at the cuts' last. -/
theorem run (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R12 m c (Proc.devRef .tc b) :=
  (θ_run defs _ _).mono (fun _ h c b => (h c b).trans (congrFun (after_ops m c) _))
    (run_seq scopedRefs_eq scopedSems_eq defs main (fun _ => ops) main_eq (fun _ => ops_sub) m ρ)

end Cert.ReferenceIdeal.Hand

end
-- ==== Proof.RefCarry.lean ====
/-
  What the reference program's buffers hold at the cuts before and after its three dense products, for the buffers that
  only pass through: the source list, the target list and the per-edge coefficient (computed once, before the first product)
  and the arguments (never written).
-/
import proofs.«101970_j51616916963749_1_alg».proof.Proof.RefRun

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

theorem v3_4 : R4 m c (Proc.devRef .tc main_v3) = R3 m c (Proc.devRef .tc main_v3) := by
  unfold R4; dsimp only [opsDot1]; after_results_simp
theorem v3_7 : R7 m c (Proc.devRef .tc main_v3) = R3 m c (Proc.devRef .tc main_v3) := by
  unfold R7 R6 R4; dsimp only [opsDot2, opsConv1, opsDot1]; after_results_simp
theorem v3_10 : R10 m c (Proc.devRef .tc main_v3) = R3 m c (Proc.devRef .tc main_v3) := by
  unfold R10 R9 R7 R6 R4; dsimp only [opsDot3, opsConv2, opsDot2, opsConv1, opsDot1]; after_results_simp
theorem v6_4 : R4 m c (Proc.devRef .tc main_v6) = R3 m c (Proc.devRef .tc main_v6) := by
  unfold R4; dsimp only [opsDot1]; after_results_simp
theorem v6_7 : R7 m c (Proc.devRef .tc main_v6) = R3 m c (Proc.devRef .tc main_v6) := by
  unfold R7 R6 R4; dsimp only [opsDot2, opsConv1, opsDot1]; after_results_simp
theorem v6_10 : R10 m c (Proc.devRef .tc main_v6) = R3 m c (Proc.devRef .tc main_v6) := by
  unfold R10 R9 R7 R6 R4; dsimp only [opsDot3, opsConv2, opsDot2, opsConv1, opsDot1]; after_results_simp
theorem v30_4 : R4 m c (Proc.devRef .tc main_v30) = R3 m c (Proc.devRef .tc main_v30) := by
  unfold R4; dsimp only [opsDot1]; after_results_simp
theorem v30_7 : R7 m c (Proc.devRef .tc main_v30) = R3 m c (Proc.devRef .tc main_v30) := by
  unfold R7 R6 R4; dsimp only [opsDot2, opsConv1, opsDot1]; after_results_simp
theorem v30_10 : R10 m c (Proc.devRef .tc main_v30) = R3 m c (Proc.devRef .tc main_v30) := by
  unfold R10 R9 R7 R6 R4; dsimp only [opsDot3, opsConv2, opsDot2, opsConv1, opsDot1]; after_results_simp

/-! ## The arguments at the cut where each is read, and at the return -/

theorem arg0_3 : R3 m c (Proc.devRef .tc main_arg0) = m ((c.tc : Thread nD τ).loc main_arg0) := by
  unfold R3; dsimp only [opsPre]; after_results_simp
  first | done | rfl
theorem arg2_3 : R3 m c (Proc.devRef .tc main_arg2) = m ((c.tc : Thread nD τ).loc main_arg2) := by
  unfold R3; dsimp only [opsPre]; after_results_simp
  first | done | rfl
theorem arg3_4 : R4 m c (Proc.devRef .tc main_arg3) = m ((c.tc : Thread nD τ).loc main_arg3) := by
  unfold R4 R3; dsimp only [opsDot1, opsPre]; after_results_simp
  first | done | rfl
theorem arg4_6 : R6 m c (Proc.devRef .tc main_arg4) = m ((c.tc : Thread nD τ).loc main_arg4) := by
  unfold R6 R4 R3; dsimp only [opsConv1, opsDot1, opsPre]; after_results_simp
  first | done | rfl
theorem arg5_7 : R7 m c (Proc.devRef .tc main_arg5) = m ((c.tc : Thread nD τ).loc main_arg5) := by
  unfold R7 R6 R4 R3; dsimp only [opsDot2, opsConv1, opsDot1, opsPre]; after_results_simp
  first | done | rfl
theorem arg6_9 : R9 m c (Proc.devRef .tc main_arg6) = m ((c.tc : Thread nD τ).loc main_arg6) := by
  unfold R9 R7 R6 R4 R3; dsimp only [opsConv2, opsDot2, opsConv1, opsDot1, opsPre]; after_results_simp
  first | done | rfl
theorem arg7_10 : R10 m c (Proc.devRef .tc main_arg7) = m ((c.tc : Thread nD τ).loc main_arg7) := by
  unfold R10 R9 R7 R6 R4 R3; dsimp only [opsDot3, opsConv2, opsDot2, opsConv1, opsDot1, opsPre]; after_results_simp
  first | done | rfl
theorem arg0_12 : R12 m c (Proc.devRef .tc main_arg0) = m ((c.tc : Thread nD τ).loc main_arg0) := by
  unfold R12 R10 R9 R7 R6 R4 R3; dsimp only [opsConv3, opsDot3, opsConv2, opsDot2, opsConv1, opsDot1, opsPre]; after_results_simp
  first | done | rfl
theorem arg1_12 : R12 m c (Proc.devRef .tc main_arg1) = m ((c.tc : Thread nD τ).loc main_arg1) := by
  unfold R12 R10 R9 R7 R6 R4 R3; dsimp only [opsConv3, opsDot3, opsConv2, opsDot2, opsConv1, opsDot1, opsPre]; after_results_simp
  first | done | rfl
theorem arg2_12 : R12 m c (Proc.devRef .tc main_arg2) = m ((c.tc : Thread nD τ).loc main_arg2) := by
  unfold R12 R10 R9 R7 R6 R4 R3; dsimp only [opsConv3, opsDot3, opsConv2, opsDot2, opsConv1, opsDot1, opsPre]; after_results_simp
  first | done | rfl
theorem arg3_12 : R12 m c (Proc.devRef .tc main_arg3) = m ((c.tc : Thread nD τ).loc main_arg3) := by
  unfold R12 R10 R9 R7 R6 R4 R3; dsimp only [opsConv3, opsDot3, opsConv2, opsDot2, opsConv1, opsDot1, opsPre]; after_results_simp
  first | done | rfl
theorem arg4_12 : R12 m c (Proc.devRef .tc main_arg4) = m ((c.tc : Thread nD τ).loc main_arg4) := by
  unfold R12 R10 R9 R7 R6 R4 R3; dsimp only [opsConv3, opsDot3, opsConv2, opsDot2, opsConv1, opsDot1, opsPre]; after_results_simp
  first | done | rfl
theorem arg5_12 : R12 m c (Proc.devRef .tc main_arg5) = m ((c.tc : Thread nD τ).loc main_arg5) := by
  unfold R12 R10 R9 R7 R6 R4 R3; dsimp only [opsConv3, opsDot3, opsConv2, opsDot2, opsConv1, opsDot1, opsPre]; after_results_simp
  first | done | rfl
theorem arg6_12 : R12 m c (Proc.devRef .tc main_arg6) = m ((c.tc : Thread nD τ).loc main_arg6) := by
  unfold R12 R10 R9 R7 R6 R4 R3; dsimp only [opsConv3, opsDot3, opsConv2, opsDot2, opsConv1, opsDot1, opsPre]; after_results_simp
  first | done | rfl
theorem arg7_12 : R12 m c (Proc.devRef .tc main_arg7) = m ((c.tc : Thread nD τ).loc main_arg7) := by
  unfold R12 R10 R9 R7 R6 R4 R3; dsimp only [opsConv3, opsDot3, opsConv2, opsDot2, opsConv1, opsDot1, opsPre]; after_results_simp
  first | done | rfl

end Cert.ReferenceIdeal.Hand

end
-- ==== Proof.Bridge.lean ====
/-
  The two programs, stretch by stretch.

  Both programs do the same host work around their dense products: from the edge list they build the source list, the
  target list (each with the self loops appended) and the per-edge coefficient `dinv[row] · 1 · dinv[col]`; after each
  product they gather the product's rows at the sources, scale them, scatter-add them at the targets, add the bias, and
  apply relu (after the last product: log-softmax over the classes). They differ only in how each product is computed: the
  kernel program by a row-tiled pipeline, the reference by one `dot_general`; and the tiled pipeline leaves exactly that
  `dot_general` in its result array. So, from memories that agree on the arguments, the buffers the two programs hold
  agree at every cut: the three bookkeeping arrays before the first product, then each product, then each layer's output —
  each step because the same operations are applied to contents already known equal. The host operations are never opened:
  only read off both programs and compared.
-/
import proofs.«101970_j51616916963749_1_alg».proof.Proof.KernelCarry
import proofs.«101970_j51616916963749_1_alg».proof.Proof.Layer1Product
import proofs.«101970_j51616916963749_1_alg».proof.Proof.Layer2Product
import proofs.«101970_j51616916963749_1_alg».proof.Proof.Layer3Product
import proofs.«101970_j51616916963749_1_alg».proof.Proof.RefCarry

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- Reads what is left of a buffer's contents under a join of two arrays: a rewrite goes where a congruence does not, the join's
    side condition being stated over the list of its operands. -/
local macro "read_under_joins" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- The two launch memories agree on the eight arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-! ## Before the first product: the source list, the target list, the per-edge coefficient -/

theorem pre_v3 (h : Agree m m' c) : Cert.KernelIdeal.Gen.W3 m ρ c (Proc.devRef .tc Cert.KernelIdeal.main_v3) = Cert.ReferenceIdeal.Hand.R3 m' c (Proc.devRef .tc Cert.ReferenceIdeal.main_v3) := by
  have e1 : launchContents m' c (Proc.devRef .tc Cert.ReferenceIdeal.main_arg1) = Cert.KernelIdeal.Gen.W0 m ρ c (Proc.devRef .tc Cert.KernelIdeal.main_arg1) := h.2.1
  unfold Cert.ReferenceIdeal.Hand.R3
  dsimp only [Cert.KernelIdeal.Gen.W3, Cert.KernelIdeal.Gen.W2, Cert.KernelIdeal.Gen.W1, Cert.KernelIdeal.Gen.hostOps0, Cert.KernelIdeal.Gen.hostOps0_1, Cert.KernelIdeal.Gen.hostOps0_2, Cert.ReferenceIdeal.Hand.opsPre]
  after_results_simp
  read_under_joins
  rw [e1]
  rfl

theorem pre_v6 (h : Agree m m' c) : Cert.KernelIdeal.Gen.W3 m ρ c (Proc.devRef .tc Cert.KernelIdeal.main_v6) = Cert.ReferenceIdeal.Hand.R3 m' c (Proc.devRef .tc Cert.ReferenceIdeal.main_v6) := by
  have e1 : launchContents m' c (Proc.devRef .tc Cert.ReferenceIdeal.main_arg1) = Cert.KernelIdeal.Gen.W0 m ρ c (Proc.devRef .tc Cert.KernelIdeal.main_arg1) := h.2.1
  unfold Cert.ReferenceIdeal.Hand.R3
  dsimp only [Cert.KernelIdeal.Gen.W3, Cert.KernelIdeal.Gen.W2, Cert.KernelIdeal.Gen.W1, Cert.KernelIdeal.Gen.hostOps0, Cert.KernelIdeal.Gen.hostOps0_1, Cert.KernelIdeal.Gen.hostOps0_2, Cert.ReferenceIdeal.Hand.opsPre]
  after_results_simp
  read_under_joins
  rw [e1]
  rfl

theorem pre_v30 (h : Agree m m' c) : Cert.KernelIdeal.Gen.W3 m ρ c (Proc.devRef .tc Cert.KernelIdeal.main_v30) = Cert.ReferenceIdeal.Hand.R3 m' c (Proc.devRef .tc Cert.ReferenceIdeal.main_v30) := by
  have e1 : launchContents m' c (Proc.devRef .tc Cert.ReferenceIdeal.main_arg1) = Cert.KernelIdeal.Gen.W0 m ρ c (Proc.devRef .tc Cert.KernelIdeal.main_arg1) := h.2.1
  unfold Cert.ReferenceIdeal.Hand.R3
  dsimp only [Cert.KernelIdeal.Gen.W3, Cert.KernelIdeal.Gen.W2, Cert.KernelIdeal.Gen.W1, Cert.KernelIdeal.Gen.hostOps0, Cert.KernelIdeal.Gen.hostOps0_1, Cert.KernelIdeal.Gen.hostOps0_2, Cert.ReferenceIdeal.Hand.opsPre]
  after_results_simp
  read_under_joins
  rw [e1]
  rfl

/-! ## Layer 1 -/

/-- The first region's result array is the reference's first product. -/
theorem dot1 (h : Agree m m' c) : Cert.KernelIdeal.Gen.W4 m ρ c (Proc.devRef .tc Cert.KernelIdeal.main_v31) = Cert.ReferenceIdeal.Hand.R4 m' c (Proc.devRef .tc Cert.ReferenceIdeal.main_v31) := by
  refine ((Cert.KernelIdeal.Gen.W4_arr m ρ c 2).trans (Cert.KernelIdeal.Layer1.final (Cert.KernelIdeal.Gen.V3 m ρ) c)).trans ?_
  have ein : Cert.KernelIdeal.Gen.V3 m ρ c Cert.KernelIdeal.main_arg0 = Cert.ReferenceIdeal.Hand.R3 m' c (Proc.devRef .tc Cert.ReferenceIdeal.main_arg0) := (Cert.KernelIdeal.Hand.arg0_3 m ρ c).trans ((h.1).symm.trans (Cert.ReferenceIdeal.Hand.arg0_3 m' c).symm)
  have ea : Cert.KernelIdeal.Gen.V3 m ρ c Cert.KernelIdeal.main_arg2 = Cert.ReferenceIdeal.Hand.R3 m' c (Proc.devRef .tc Cert.ReferenceIdeal.main_arg2) :=
    (Cert.KernelIdeal.Hand.arg2_3 m ρ c).trans ((h.2.2.1).symm.trans (Cert.ReferenceIdeal.Hand.arg2_3 m' c).symm)
  rw [ein, ea]
  unfold Cert.ReferenceIdeal.Hand.R4
  dsimp only [Cert.ReferenceIdeal.Hand.opsDot1]
  after_results_simp
  rfl

/-- Layer 1's output (after gather, scale, scatter-add, bias, relu) agrees. -/
theorem conv1 (h : Agree m m' c) : Cert.KernelIdeal.Gen.W6 m ρ c (Proc.devRef .tc Cert.KernelIdeal.main_v48) = Cert.ReferenceIdeal.Hand.R6 m' c (Proc.devRef .tc Cert.ReferenceIdeal.main_v48) := by
  have ep : Cert.KernelIdeal.Gen.W4 m ρ c (Proc.devRef .tc Cert.KernelIdeal.main_v31) = Cert.ReferenceIdeal.Hand.R4 m' c (Proc.devRef .tc Cert.ReferenceIdeal.main_v31) := dot1 m ρ m' c h
  have e3 : Cert.KernelIdeal.Gen.W4 m ρ c (Proc.devRef .tc Cert.KernelIdeal.main_v3) = Cert.ReferenceIdeal.Hand.R4 m' c (Proc.devRef .tc Cert.ReferenceIdeal.main_v3) :=
    (Cert.KernelIdeal.Hand.v3_4 m ρ c).trans ((pre_v3 m ρ m' c h).trans (Cert.ReferenceIdeal.Hand.v3_4 m' c).symm)
  have e6 : Cert.KernelIdeal.Gen.W4 m ρ c (Proc.devRef .tc Cert.KernelIdeal.main_v6) = Cert.ReferenceIdeal.Hand.R4 m' c (Proc.devRef .tc Cert.ReferenceIdeal.main_v6) :=
    (Cert.KernelIdeal.Hand.v6_4 m ρ c).trans ((pre_v6 m ρ m' c h).trans (Cert.ReferenceIdeal.Hand.v6_4 m' c).symm)
  have e30 : Cert.KernelIdeal.Gen.W4 m ρ c (Proc.devRef .tc Cert.KernelIdeal.main_v30) = Cert.ReferenceIdeal.Hand.R4 m' c (Proc.devRef .tc Cert.ReferenceIdeal.main_v30) :=
    (Cert.KernelIdeal.Hand.v30_4 m ρ c).trans ((pre_v30 m ρ m' c h).trans (Cert.ReferenceIdeal.Hand.v30_4 m' c).symm)
  have ea : Cert.KernelIdeal.Gen.W4 m ρ c (Proc.devRef .tc Cert.KernelIdeal.main_arg3) = Cert.ReferenceIdeal.Hand.R4 m' c (Proc.devRef .tc Cert.ReferenceIdeal.main_arg3) :=
    (Cert.KernelIdeal.Hand.arg3_4 m ρ c).trans ((h.2.2.2.1).symm.trans (Cert.ReferenceIdeal.Hand.arg3_4 m' c).symm)
  unfold Cert.ReferenceIdeal.Hand.R6
  dsimp only [Cert.KernelIdeal.Gen.W6, Cert.KernelIdeal.Gen.W5, Cert.KernelIdeal.Gen.hostOps1, Cert.KernelIdeal.Gen.hostOps1_1, Cert.ReferenceIdeal.Hand.opsConv1]
  after_results_simp
  rw [ep, e3, e6, e30, ea]
  rfl

/-! ## Layer 2 -/

/-- The second region's result array is the reference's second product. -/
theorem dot2 (h : Agree m m' c) : Cert.KernelIdeal.Gen.W7 m ρ c (Proc.devRef .tc Cert.KernelIdeal.main_v49) = Cert.ReferenceIdeal.Hand.R7 m' c (Proc.devRef .tc Cert.ReferenceIdeal.main_v49) := by
  refine ((Cert.KernelIdeal.Gen.W7_arr m ρ c 2).trans (Cert.KernelIdeal.Layer2.final (Cert.KernelIdeal.Gen.V6 m ρ) c)).trans ?_
  have ein : Cert.KernelIdeal.Gen.V6 m ρ c Cert.KernelIdeal.main_v48 = Cert.ReferenceIdeal.Hand.R6 m' c (Proc.devRef .tc Cert.ReferenceIdeal.main_v48) := conv1 m ρ m' c h
  have ea : Cert.KernelIdeal.Gen.V6 m ρ c Cert.KernelIdeal.main_arg4 = Cert.ReferenceIdeal.Hand.R6 m' c (Proc.devRef .tc Cert.ReferenceIdeal.main_arg4) :=
    (Cert.KernelIdeal.Hand.arg4_6 m ρ c).trans ((h.2.2.2.2.1).symm.trans (Cert.ReferenceIdeal.Hand.arg4_6 m' c).symm)
  rw [ein, ea]
  unfold Cert.ReferenceIdeal.Hand.R7
  dsimp only [Cert.ReferenceIdeal.Hand.opsDot2]
  after_results_simp
  rfl

/-- Layer 2's output agrees. -/
theorem conv2 (h : Agree m m' c) : Cert.KernelIdeal.Gen.W9 m ρ c (Proc.devRef .tc Cert.KernelIdeal.main_v66) = Cert.ReferenceIdeal.Hand.R9 m' c (Proc.devRef .tc Cert.ReferenceIdeal.main_v66) := by
  have ep : Cert.KernelIdeal.Gen.W7 m ρ c (Proc.devRef .tc Cert.KernelIdeal.main_v49) = Cert.ReferenceIdeal.Hand.R7 m' c (Proc.devRef .tc Cert.ReferenceIdeal.main_v49) := dot2 m ρ m' c h
  have e3 : Cert.KernelIdeal.Gen.W7 m ρ c (Proc.devRef .tc Cert.KernelIdeal.main_v3) = Cert.ReferenceIdeal.Hand.R7 m' c (Proc.devRef .tc Cert.ReferenceIdeal.main_v3) :=
    (Cert.KernelIdeal.Hand.v3_7 m ρ c).trans ((pre_v3 m ρ m' c h).trans (Cert.ReferenceIdeal.Hand.v3_7 m' c).symm)
  have e6 : Cert.KernelIdeal.Gen.W7 m ρ c (Proc.devRef .tc Cert.KernelIdeal.main_v6) = Cert.ReferenceIdeal.Hand.R7 m' c (Proc.devRef .tc Cert.ReferenceIdeal.main_v6) :=
    (Cert.KernelIdeal.Hand.v6_7 m ρ c).trans ((pre_v6 m ρ m' c h).trans (Cert.ReferenceIdeal.Hand.v6_7 m' c).symm)
  have e30 : Cert.KernelIdeal.Gen.W7 m ρ c (Proc.devRef .tc Cert.KernelIdeal.main_v30) = Cert.ReferenceIdeal.Hand.R7 m' c (Proc.devRef .tc Cert.ReferenceIdeal.main_v30) :=
    (Cert.KernelIdeal.Hand.v30_7 m ρ c).trans ((pre_v30 m ρ m' c h).trans (Cert.ReferenceIdeal.Hand.v30_7 m' c).symm)
  have ea : Cert.KernelIdeal.Gen.W7 m ρ c (Proc.devRef .tc Cert.KernelIdeal.main_arg5) = Cert.ReferenceIdeal.Hand.R7 m' c (Proc.devRef .tc Cert.ReferenceIdeal.main_arg5) :=
    (Cert.KernelIdeal.Hand.arg5_7 m ρ c).trans ((h.2.2.2.2.2.1).symm.trans (Cert.ReferenceIdeal.Hand.arg5_7 m' c).symm)
  unfold Cert.ReferenceIdeal.Hand.R9
  dsimp only [Cert.KernelIdeal.Gen.W9, Cert.KernelIdeal.Gen.W8, Cert.KernelIdeal.Gen.hostOps2, Cert.KernelIdeal.Gen.hostOps2_1, Cert.ReferenceIdeal.Hand.opsConv2]
  after_results_simp
  rw [ep, e3, e6, e30, ea]
  rfl

/-! ## Layer 3 -/

/-- The third region's result array is the reference's third product. -/
theorem dot3 (h : Agree m m' c) : Cert.KernelIdeal.Gen.W10 m ρ c (Proc.devRef .tc Cert.KernelIdeal.main_v67) = Cert.ReferenceIdeal.Hand.R10 m' c (Proc.devRef .tc Cert.ReferenceIdeal.main_v67) := by
  refine ((Cert.KernelIdeal.Gen.W10_arr m ρ c 2).trans (Cert.KernelIdeal.Layer3.final (Cert.KernelIdeal.Gen.V9 m ρ) c)).trans ?_
  have ein : Cert.KernelIdeal.Gen.V9 m ρ c Cert.KernelIdeal.main_v66 = Cert.ReferenceIdeal.Hand.R9 m' c (Proc.devRef .tc Cert.ReferenceIdeal.main_v66) := conv2 m ρ m' c h
  have ea : Cert.KernelIdeal.Gen.V9 m ρ c Cert.KernelIdeal.main_arg6 = Cert.ReferenceIdeal.Hand.R9 m' c (Proc.devRef .tc Cert.ReferenceIdeal.main_arg6) :=
    (Cert.KernelIdeal.Hand.arg6_9 m ρ c).trans ((h.2.2.2.2.2.2.1).symm.trans (Cert.ReferenceIdeal.Hand.arg6_9 m' c).symm)
  rw [ein, ea]
  unfold Cert.ReferenceIdeal.Hand.R10
  dsimp only [Cert.ReferenceIdeal.Hand.opsDot3]
  after_results_simp
  rfl

/-- The result (after gather, scale, scatter-add, bias, log-softmax) agrees. -/
theorem conv3 (h : Agree m m' c) : Cert.KernelIdeal.Gen.W12 m ρ c (Proc.devRef .tc Cert.KernelIdeal.main_v84) = Cert.ReferenceIdeal.Hand.R12 m' c (Proc.devRef .tc Cert.ReferenceIdeal.main_v84) := by
  have ep : Cert.KernelIdeal.Gen.W10 m ρ c (Proc.devRef .tc Cert.KernelIdeal.main_v67) = Cert.ReferenceIdeal.Hand.R10 m' c (Proc.devRef .tc Cert.ReferenceIdeal.main_v67) := dot3 m ρ m' c h
  have e3 : Cert.KernelIdeal.Gen.W10 m ρ c (Proc.devRef .tc Cert.KernelIdeal.main_v3) = Cert.ReferenceIdeal.Hand.R10 m' c (Proc.devRef .tc Cert.ReferenceIdeal.main_v3) :=
    (Cert.KernelIdeal.Hand.v3_10 m ρ c).trans ((pre_v3 m ρ m' c h).trans (Cert.ReferenceIdeal.Hand.v3_10 m' c).symm)
  have e6 : Cert.KernelIdeal.Gen.W10 m ρ c (Proc.devRef .tc Cert.KernelIdeal.main_v6) = Cert.ReferenceIdeal.Hand.R10 m' c (Proc.devRef .tc Cert.ReferenceIdeal.main_v6) :=
    (Cert.KernelIdeal.Hand.v6_10 m ρ c).trans ((pre_v6 m ρ m' c h).trans (Cert.ReferenceIdeal.Hand.v6_10 m' c).symm)
  have e30 : Cert.KernelIdeal.Gen.W10 m ρ c (Proc.devRef .tc Cert.KernelIdeal.main_v30) = Cert.ReferenceIdeal.Hand.R10 m' c (Proc.devRef .tc Cert.ReferenceIdeal.main_v30) :=
    (Cert.KernelIdeal.Hand.v30_10 m ρ c).trans ((pre_v30 m ρ m' c h).trans (Cert.ReferenceIdeal.Hand.v30_10 m' c).symm)
  have ea : Cert.KernelIdeal.Gen.W10 m ρ c (Proc.devRef .tc Cert.KernelIdeal.main_arg7) = Cert.ReferenceIdeal.Hand.R10 m' c (Proc.devRef .tc Cert.ReferenceIdeal.main_arg7) :=
    (Cert.KernelIdeal.Hand.arg7_10 m ρ c).trans ((h.2.2.2.2.2.2.2).symm.trans (Cert.ReferenceIdeal.Hand.arg7_10 m' c).symm)
  unfold Cert.ReferenceIdeal.Hand.R12
  dsimp only [Cert.KernelIdeal.Gen.W12, Cert.KernelIdeal.Gen.W11, Cert.KernelIdeal.Gen.hostOps3, Cert.KernelIdeal.Gen.hostOps3_1, Cert.ReferenceIdeal.Hand.opsConv3]
  after_results_simp
  rw [ep, e3, e6, e30, ea]
  rfl

end Cert.Bridge

end
-- ==== Proof.lean ====
/-
  A three-layer graph convolution network, its dense products tiled over rows, against the plain jnp network.

  Both programs normalise the graph once (self loops appended to the edge list, in-degrees by a scatter-add of ones,
  `dinv = deg^(-1/2)` where the degree is positive, the per-edge coefficient `dinv[row] · dinv[col]`) and then apply three
  layers `h ↦ scatter_add(gather(h · W, row) · coeff, col) + b`, with relu after the first two and log-softmax over the seven
  classes after the third. The kernel program computes each product `h · W` by a pipeline that tiles the rows of `h`
  (1000 rows per tile for the first product, 2000 for the other two), rounding both operands to bf16 on the way into the
  multiply; the reference computes it by one `dot_general`. At the exact values the rounding is the identity and a tile's
  product into a zero accumulator is the same contraction sum as the whole product's rows, so each pipeline leaves the
  `dot_general` of its operands in its result array (Layer1Product, Layer2Product, Layer3Product over LibBlockMatmul). All the other
  operations are the same in the two programs and are applied to contents already known equal (Bridge), so the two
  results are equal — as extended reals, whatever the arguments: no algebraic law beyond the congruence of a sum is used,
  and the precondition (finite inputs) is never opened. The ideal pass rewrote nothing, so `preserves` is trivial; the three
  frames are the generated frame of each kernel program and the reference's run with its result dropped.
-/
import proofs.«101970_j51616916963749_1_alg».proof.Defs
import proofs.«101970_j51616916963749_1_alg».proof.Proof.Gen.Kernel
import proofs.«101970_j51616916963749_1_alg».proof.Proof.Gen.Kernel.Frame
import proofs.«101970_j51616916963749_1_alg».proof.Proof.Gen.KernelIdeal
import proofs.«101970_j51616916963749_1_alg».proof.Proof.Gen.KernelIdeal.Frame
import proofs.«101970_j51616916963749_1_alg».proof.Proof.Gen.ReferenceIdeal
import proofs.«101970_j51616916963749_1_alg».proof.Proof.Gen.Pre_finite_inputs
import proofs.«101970_j51616916963749_1_alg».proof.Proof.KernelRun
import proofs.«101970_j51616916963749_1_alg».proof.Proof.Bridge
import Idealize.ShloMosaic.Adequacy
import Idealize.ShloMosaic.Init

noncomputable section

namespace Cert.Proof

open Idealize.ShloMosaic Idealize.ShloMosaic.TcCoe Idealize.SL.Sem

/-- The printed kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations, none of which writes an argument. -/
theorem frame_referenceIdeal : Cert.frame_ReferenceIdeal := fun M ρ _ =>
  (θ_run Cert.ReferenceIdeal.defs _ _).mono (fun _ h c =>
      ⟨(h c _).trans (Cert.ReferenceIdeal.Hand.arg0_12 M c),
       (h c _).trans (Cert.ReferenceIdeal.Hand.arg1_12 M c),
       (h c _).trans (Cert.ReferenceIdeal.Hand.arg2_12 M c),
       (h c _).trans (Cert.ReferenceIdeal.Hand.arg3_12 M c),
       (h c _).trans (Cert.ReferenceIdeal.Hand.arg4_12 M c),
       (h c _).trans (Cert.ReferenceIdeal.Hand.arg5_12 M c),
       (h c _).trans (Cert.ReferenceIdeal.Hand.arg6_12 M c),
       (h c _).trans (Cert.ReferenceIdeal.Hand.arg7_12 M c)⟩)
    (Cert.ReferenceIdeal.Hand.run (F := Ideal) M ρ)

/-- The ideal pass rewrote no operation of the kernel program. -/
theorem preserves : Cert.preserves_Kernel_KernelIdeal := trivial

/-- From memories agreeing on the arguments both idealized programs run, and both end with the same result array: the
    kernel program's, read off its run as the fold of its host stretches and regions; the reference's, the fold of its
    operations; equal cut by cut. -/
theorem algebraic : Cert.algebraic_KernelIdeal_ReferenceIdeal := by
  intro m ρ M ρ' _ hagree
  refine ⟨fun c => Cert.KernelIdeal.Gen.W12 m ρ c (Proc.devRef .tc Cert.KernelIdeal.main_v84), Cert.KernelIdeal.Hand.run_named (F := Ideal) m ρ, ?_⟩
  exact (θ_run Cert.ReferenceIdeal.defs _ _).mono (fun _ h c =>
      ⟨(h c Cert.ReferenceIdeal.main_v84).trans (Cert.Bridge.conv3 m ρ M c (hagree c)).symm,
       (h c _).trans (Cert.ReferenceIdeal.Hand.arg0_12 M c),
       (h c _).trans (Cert.ReferenceIdeal.Hand.arg1_12 M c),
       (h c _).trans (Cert.ReferenceIdeal.Hand.arg2_12 M c),
       (h c _).trans (Cert.ReferenceIdeal.Hand.arg3_12 M c),
       (h c _).trans (Cert.ReferenceIdeal.Hand.arg4_12 M c),
       (h c _).trans (Cert.ReferenceIdeal.Hand.arg5_12 M c),
       (h c _).trans (Cert.ReferenceIdeal.Hand.arg6_12 M c),
       (h c _).trans (Cert.ReferenceIdeal.Hand.arg7_12 M c)⟩)
    (Cert.ReferenceIdeal.Hand.run (F := Ideal) M ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
